-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x640 : Shape := ⟨2, ![50000, 640]⟩
abbrev S50000 : Shape := ⟨1, ![50000]⟩
abbrev S2x600000 : Shape := ⟨2, ![2, 600000]⟩
abbrev S640x112 : Shape := ⟨2, ![640, 112]⟩
abbrev S112 : Shape := ⟨1, ![112]⟩
abbrev S5x16 : Shape := ⟨2, ![5, 16]⟩
abbrev S2x128x128 : Shape := ⟨3, ![2, 128, 128]⟩
abbrev S2x128 : Shape := ⟨2, ![2, 128]⟩
abbrev S128 : Shape := ⟨1, ![128]⟩
abbrev S_ : Shape := ⟨0, ![]⟩

class Facts : Prop where
  bcast_S_S50000x640 : S_.BroadcastsInDim S50000x640 (![] : Fin 0 → Fin S50000x640.rank)
  reducesTo_S50000x640_S_d0_1 : S50000x640.ReducesTo [0, 1] S_
  h_S_ : 0 < S_.numel
  bcast_S_S640x112 : S_.BroadcastsInDim S640x112 (![] : Fin 0 → Fin S640x112.rank)
  reducesTo_S640x112_S_d0_1 : S640x112.ReducesTo [0, 1] S_
  bcast_S_S112 : S_.BroadcastsInDim S112 (![] : Fin 0 → Fin S112.rank)
  reducesTo_S112_S_d0 : S112.ReducesTo [0] S_
  bcast_S_S5x16 : S_.BroadcastsInDim S5x16 (![] : Fin 0 → Fin S5x16.rank)
  reducesTo_S5x16_S_d0_1 : S5x16.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S2x128x128 .f32) (main_arg7 : FVec F S2x128 .f32) (main_arg8 : FVec F S128 .f32) (main_arg9 : FVec F S128 .f32) (main_v13 : IVec S_ 1) (main_v16 : IVec S5x16 1) : IVec S_ 1 :=
  let main_c_5 : IVec S_ 1 := constantI S_ 1 1#1
  let main_v17 : IVec S_ 1 := (fun x v => Host.reduce IntOp.andi x v reducesTo_S5x16_S_d0_1 h_S_) main_v16 main_c_5
  let main_v18 : IVec S_ 1 := andi main_v13 main_v17
  let main_v19 : FVec F S2x128x128 .f32 := Host.absf main_arg6
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128 .f32 := Host.absf main_arg7
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_v33

def fn {F : FTy → Type} [FloatOps F] (main_arg0 : FVec F S50000x640 .f32) (main_arg1 : IVec S50000 32) (main_arg2 : IVec S2x600000 32) (main_arg3 : FVec F S640x112 .f32) (main_arg4 : FVec F S112 .f32) (main_arg5 : FVec F S5x16 .f32) (main_arg6 : FVec F S2x128x128 .f32) (main_arg7 : FVec F S2x128 .f32) (main_arg8 : FVec F S128 .f32) (main_arg9 : FVec F S128 .f32) : IVec S_ 1 :=
  let main_v0 : FVec F S50000x640 .f32 := Host.absf main_arg0
  let main_cst : FVec F S_ .f32 := constant S_ .f32 0x7F800000#32
  let main_v1 : FVec F S50000x640 .f32 := broadcastInDim S50000x640 ![] bcast_S_S50000x640 main_cst
  let main_v2 : IVec S50000x640 1 := cmpf .olt main_v0 main_v1
  let main_c : IVec S_ 1 := constantI S_ 1 1#1
  let main_v3 : IVec S_ 1 := (fun x v => Host.reduce IntOp.andi x v reducesTo_S50000x640_S_d0_1 h_S_) main_v2 main_c
  let main_v4 : FVec F S640x112 .f32 := Host.absf main_arg3
  let main_cst_0 : FVec F S_ .f32 := constant S_ .f32 0x7F800000#32
  let main_v5 : FVec F S640x112 .f32 := broadcastInDim S640x112 ![] bcast_S_S640x112 main_cst_0
  let main_v6 : IVec S640x112 1 := cmpf .olt main_v4 main_v5
  let main_c_1 : IVec S_ 1 := constantI S_ 1 1#1
  let main_v7 : IVec S_ 1 := (fun x v => Host.reduce IntOp.andi x v reducesTo_S640x112_S_d0_1 h_S_) main_v6 main_c_1
  let main_v8 : IVec S_ 1 := andi main_v3 main_v7
  let main_v9 : FVec F S112 .f32 := Host.absf main_arg4
  let main_cst_2 : FVec F S_ .f32 := constant S_ .f32 0x7F800000#32
  let main_v10 : FVec F S112 .f32 := broadcastInDim S112 ![] bcast_S_S112 main_cst_2
  let main_v11 : IVec S112 1 := cmpf .olt main_v9 main_v10
  let main_c_3 : IVec S_ 1 := constantI S_ 1 1#1
  let main_v12 : IVec S_ 1 := (fun x v => Host.reduce IntOp.andi x v reducesTo_S112_S_d0 h_S_) main_v11 main_c_3
  let main_v13 : IVec S_ 1 := andi main_v8 main_v12
  let main_v14 : FVec F S5x16 .f32 := Host.absf main_arg5
  let main_cst_4 : FVec F S_ .f32 := constant S_ .f32 0x7F800000#32
  let main_v15 : FVec F S5x16 .f32 := broadcastInDim S5x16 ![] bcast_S_S5x16 main_cst_4
  let main_v16 : IVec S5x16 1 := cmpf .olt main_v14 main_v15
  fn_part1 (F := F) main_arg6 main_arg7 main_arg8 main_arg9 main_v13 main_v16
-- ==== Kernel.lean ====
abbrev S50000x640 : Shape := ⟨2, ![50000, 640]⟩
abbrev S50000 : Shape := ⟨1, ![50000]⟩
abbrev S2x600000 : Shape := ⟨2, ![2, 600000]⟩
abbrev S640x112 : Shape := ⟨2, ![640, 112]⟩
abbrev S112 : Shape := ⟨1, ![112]⟩
abbrev S5x16 : Shape := ⟨2, ![5, 16]⟩
abbrev S2x128x128 : Shape := ⟨3, ![2, 128, 128]⟩
abbrev S2x128 : Shape := ⟨2, ![2, 128]⟩
abbrev S128 : Shape := ⟨1, ![128]⟩
abbrev S_ : Shape := ⟨0, ![]⟩
abbrev S50000x1 : Shape := ⟨2, ![50000, 1]⟩
abbrev S50000x16 : Shape := ⟨2, ![50000, 16]⟩
abbrev S1x112 : Shape := ⟨2, ![1, 112]⟩
abbrev S50000x128 : Shape := ⟨2, ![50000, 128]⟩
abbrev S2000x640 : Shape := ⟨2, ![2000, 640]⟩
abbrev S2000x16 : Shape := ⟨2, ![2000, 16]⟩
abbrev S2000x128 : Shape := ⟨2, ![2000, 128]⟩
abbrev S2000x112 : Shape := ⟨2, ![2000, 112]⟩
abbrev S1x600000 : Shape := ⟨2, ![1, 600000]⟩
abbrev S600000 : Shape := ⟨1, ![600000]⟩
abbrev S600000x1 : Shape := ⟨2, ![600000, 1]⟩
abbrev S1x128x128 : Shape := ⟨3, ![1, 128, 128]⟩
abbrev S128x128 : Shape := ⟨2, ![128, 128]⟩
abbrev S1x128 : Shape := ⟨2, ![1, 128]⟩
abbrev S600000x128 : Shape := ⟨2, ![600000, 128]⟩
abbrev S2000x1 : Shape := ⟨2, ![2000, 1]⟩
abbrev S2000 : Shape := ⟨1, ![2000]⟩

abbrev nBuf : Space → Nat
  | .hbm => 125
  | .vmem => 46
  | .smem => 0
  | _ => 0

abbrev bufTy : (tb : Table) → Fin (tcTables nBuf tb) → BufTy
  | .hbm, ⟨0, _⟩ => ⟨S50000x640, .f32⟩
  | .hbm, ⟨1, _⟩ => ⟨S50000, .i32⟩
  | .hbm, ⟨2, _⟩ => ⟨S2x600000, .i32⟩
  | .hbm, ⟨3, _⟩ => ⟨S640x112, .f32⟩
  | .hbm, ⟨4, _⟩ => ⟨S112, .f32⟩
  | .hbm, ⟨5, _⟩ => ⟨S5x16, .f32⟩
  | .hbm, ⟨6, _⟩ => ⟨S2x128x128, .f32⟩
  | .hbm, ⟨7, _⟩ => ⟨S2x128, .f32⟩
  | .hbm, ⟨8, _⟩ => ⟨S128, .f32⟩
  | .hbm, ⟨9, _⟩ => ⟨S128, .f32⟩
  | .hbm, ⟨10, _⟩ => ⟨S_, .i32⟩
  | .hbm, ⟨11, _⟩ => ⟨S50000, .i32⟩
  | .hbm, ⟨12, _⟩ => ⟨S50000, .i1⟩
  | .hbm, ⟨13, _⟩ => ⟨S_, .i32⟩
  | .hbm, ⟨14, _⟩ => ⟨S50000, .i32⟩
  | .hbm, ⟨15, _⟩ => ⟨S50000, .i32⟩
  | .hbm, ⟨16, _⟩ => ⟨S50000, .i32⟩
  | .hbm, ⟨17, _⟩ => ⟨S50000x1, .i32⟩
  | .hbm, ⟨18, _⟩ => ⟨S50000x16, .f32⟩
  | .hbm, ⟨19, _⟩ => ⟨S1x112, .f32⟩
  | .hbm, ⟨20, _⟩ => ⟨S50000x128, .f32⟩
  | .hbm, ⟨21, _⟩ => ⟨S1x600000, .i32⟩
  | .hbm, ⟨22, _⟩ => ⟨S600000, .i32⟩
  | .hbm, ⟨23, _⟩ => ⟨S1x600000, .i32⟩
  | .hbm, ⟨24, _⟩ => ⟨S600000, .i32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S50000, .f32⟩
  | .hbm, ⟨36, _⟩ => ⟨S1x128x128, .f32⟩
  | .hbm, ⟨37, _⟩ => ⟨S128x128, .f32⟩
  | .hbm, ⟨38, _⟩ => ⟨S1x128, .f32⟩
  | .hbm, ⟨39, _⟩ => ⟨S128, .f32⟩
  | .hbm, ⟨40, _⟩ => ⟨S50000x128, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000, .f32⟩
  | .hbm, ⟨59, _⟩ => ⟨S600000, .f32⟩
  | .hbm, ⟨60, _⟩ => ⟨S_, .i32⟩
  | .hbm, ⟨61, _⟩ => ⟨S600000, .i32⟩
  | .hbm, ⟨62, _⟩ => ⟨S600000, .i1⟩
  | .hbm, ⟨63, _⟩ => ⟨S_, .i32⟩
  | .hbm, ⟨64, _⟩ => ⟨S600000, .i32⟩
  | .hbm, ⟨65, _⟩ => ⟨S600000, .i32⟩
  | .hbm, ⟨66, _⟩ => ⟨S600000, .i32⟩
  | .hbm, ⟨67, _⟩ => ⟨S600000x1, .i32⟩
  | .hbm, ⟨68, _⟩ => ⟨S600000x128, .f32⟩
  | .hbm, ⟨69, _⟩ => ⟨S600000x1, .f32⟩
  | .hbm, ⟨70, _⟩ => ⟨S600000x128, .f32⟩
  | .hbm, ⟨71, _⟩ => ⟨S600000x128, .f32⟩
  | .hbm, ⟨72, _⟩ => ⟨S_, .f32⟩
  | .hbm, ⟨73, _⟩ => ⟨S50000x128, .f32⟩
  | .hbm, ⟨74, _⟩ => ⟨S600000x1, .i32⟩
  | .hbm, ⟨75, _⟩ => ⟨S50000x128, .f32⟩
  | .hbm, ⟨76, _⟩ => ⟨S50000x1, .f32⟩
  | .hbm, ⟨77, _⟩ => ⟨S1x128, .f32⟩
  | .hbm, ⟨78, _⟩ => ⟨S50000x128, .f32⟩
  | .hbm, ⟨79, _⟩ => ⟨S1x128x128, .f32⟩
  | .hbm, ⟨80, _⟩ => ⟨S128x128, .f32⟩
  | .hbm, ⟨81, _⟩ => ⟨S1x128, .f32⟩
  | .hbm, ⟨82, _⟩ => ⟨S128, .f32⟩
  | .hbm, ⟨83, _⟩ => ⟨S50000x128, .f32⟩
  | .hbm, ⟨84, _⟩ => ⟨S_, .i32⟩
  | .hbm, ⟨85, _⟩ => ⟨S600000, .i32⟩
  | .hbm, ⟨86, _⟩ => ⟨S600000, .i1⟩
  | .hbm, ⟨87, _⟩ => ⟨S_, .i32⟩
  | .hbm, ⟨88, _⟩ => ⟨S600000, .i32⟩
  | .hbm, ⟨89, _⟩ => ⟨S600000, .i32⟩
  | .hbm, ⟨90, _⟩ => ⟨S600000, .i32⟩
  | .hbm, ⟨91, _⟩ => ⟨S600000x1, .i32⟩
  | .hbm, ⟨92, _⟩ => ⟨S600000, .f32⟩
  | .hbm, ⟨93, _⟩ => ⟨S_, .i32⟩
  | .hbm, ⟨94, _⟩ => ⟨S600000, .i32⟩
  | .hbm, ⟨95, _⟩ => ⟨S600000, .i1⟩
  | .hbm, ⟨96, _⟩ => ⟨S_, .i32⟩
  | .hbm, ⟨97, _⟩ => ⟨S600000, .i32⟩
  | .hbm, ⟨98, _⟩ => ⟨S600000, .i32⟩
  | .hbm, ⟨99, _⟩ => ⟨S600000, .i32⟩
  | .hbm, ⟨100, _⟩ => ⟨S600000x1, .i32⟩
  | .hbm, ⟨101, _⟩ => ⟨S600000, .f32⟩
  | .hbm, ⟨102, _⟩ => ⟨S600000, .f32⟩
  | .hbm, ⟨103, _⟩ => ⟨S_, .i32⟩
  | .hbm, ⟨104, _⟩ => ⟨S600000, .i32⟩
  | .hbm, ⟨105, _⟩ => ⟨S600000, .i1⟩
  | .hbm, ⟨106, _⟩ => ⟨S_, .i32⟩
  | .hbm, ⟨107, _⟩ => ⟨S600000, .i32⟩
  | .hbm, ⟨108, _⟩ => ⟨S600000, .i32⟩
  | .hbm, ⟨109, _⟩ => ⟨S600000, .i32⟩
  | .hbm, ⟨110, _⟩ => ⟨S600000x1, .i32⟩
  | .hbm, ⟨111, _⟩ => ⟨S600000x128, .f32⟩
  | .hbm, ⟨112, _⟩ => ⟨S600000x1, .f32⟩
  | .hbm, ⟨113, _⟩ => ⟨S600000x128, .f32⟩
  | .hbm, ⟨114, _⟩ => ⟨S600000x128, .f32⟩
  | .hbm, ⟨115, _⟩ => ⟨S_, .f32⟩
  | .hbm, ⟨116, _⟩ => ⟨S50000x128, .f32⟩
  | .hbm, ⟨117, _⟩ => ⟨S600000x1, .i32⟩
  | .hbm, ⟨118, _⟩ => ⟨S50000x128, .f32⟩
  | .hbm, ⟨119, _⟩ => ⟨S50000x1, .f32⟩
  | .hbm, ⟨120, _⟩ => ⟨S1x128, .f32⟩
  | .hbm, ⟨121, _⟩ => ⟨S50000x128, .f32⟩
  | .hbm, ⟨122, _⟩ => ⟨S1x128, .f32⟩
  | .hbm, ⟨123, _⟩ => ⟨S1x128, .f32⟩
  | .hbm, ⟨124, _⟩ => ⟨S50000x128, .f32⟩
  | .local _ .vmem, ⟨0, _⟩ => ⟨S2000x640, .f32⟩
  | .local _ .vmem, ⟨1, _⟩ => ⟨S2000x640, .f32⟩
  | .local _ .vmem, ⟨2, _⟩ => ⟨S640x112, .f32⟩
  | .local _ .vmem, ⟨3, _⟩ => ⟨S1x112, .f32⟩
  | .local _ .vmem, ⟨4, _⟩ => ⟨S2000x16, .f32⟩
  | .local _ .vmem, ⟨5, _⟩ => ⟨S2000x16, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x1, .f32⟩
  | .local _ .vmem, ⟨20, _⟩ => ⟨S2000x1, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x1, .f32⟩
  | .local _ .vmem, ⟨36, _⟩ => ⟨S2000x1, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S1x128, .f32⟩
  | .local _ .vmem, ⟨43, _⟩ => ⟨S1x128, .f32⟩
  | .local _ .vmem, ⟨44, _⟩ => ⟨S2000x128, .f32⟩
  | .local _ .vmem, ⟨45, _⟩ => ⟨S2000x128, .f32⟩
  | _, _ => ⟨S50000x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_c_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_10 : Ref sig .tc := ⟨.hbm, 84, rfl⟩
abbrev main_v62 : Ref sig .tc := ⟨.hbm, 85, rfl⟩
abbrev main_v63 : Ref sig .tc := ⟨.hbm, 86, rfl⟩
abbrev main_c_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_12 : Ref sig .tc := ⟨.hbm, 93, rfl⟩
abbrev main_v69 : Ref sig .tc := ⟨.hbm, 94, rfl⟩
abbrev main_v70 : Ref sig .tc := ⟨.hbm, 95, rfl⟩
abbrev main_c_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_14 : Ref sig .tc := ⟨.hbm, 103, rfl⟩
abbrev main_v77 : Ref sig .tc := ⟨.hbm, 104, rfl⟩
abbrev main_v78 : Ref sig .tc := ⟨.hbm, 105, rfl⟩
abbrev main_c_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_16 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg3_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem3_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x112 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  shapeCasts_S112_S1x112 : S112.ShapeCasts S1x112
  inb_S2000x640_S2000x640_0_0 : ∀ a, (![0, 0] : Fin 2 → Nat) a + S2000x640.size a ≤ S2000x640.size a
  h_S2000x640 : 0 < S2000x640.numel
  bitsLt_bf16_f32 : FTy.bits .bf16 < FTy.bits .f32
  inb_S640x112_S640x112_0_0 : ∀ a, (![0, 0] : Fin 2 → Nat) a + S640x112.size a ≤ S640x112.size a
  h_S640x112 : 0 < S640x112.numel
  inb_S1x112_S1x112_0_0 : ∀ a, (![0, 0] : Fin 2 → Nat) a + S1x112.size a ≤ S1x112.size a
  h_S1x112 : 0 < S1x112.numel
  shapeCasts_S1x112_S1x112 : S1x112.ShapeCasts S1x112
  broadcasts_S1x112_S2000x112 : S1x112.Broadcasts S2000x112
  inb_S2000x128_S2000x112_0_0 : ∀ a, (![0, 0] : Fin 2 → Nat) a + S2000x112.size a ≤ S2000x128.size a
  h_S2000x112 : 0 < S2000x112.numel
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S2000x128_S2000x16_0_112 : ∀ a, (![0, 112] : Fin 2 → Nat) a + S2000x16.size a ≤ S2000x128.size a
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x128x128_S1x128x128_1_0_0 : S2x128x128.Slices ![1, 0, 0] S1x128x128
  slices_S2x128_S1x128_1_0 : S2x128.Slices ![1, 0] S1x128
  reduces_S2000x128_S2000 : S2000x128.Reduces [1] S2000
  shapeCasts_S2000_S2000x1 : S2000.ShapeCasts S2000x1
  gather_S5x16_S50000x1_S50000x16_1_0_n_n_0_1_116_wf : GatherDims.WF S5x16 S50000x1 S50000x16 [1] [0] [] [0] [] 1 ![1, 16]
  dot_S2000x640_S640x112_S2000x112_1_0_0_1_n_n_wf : DotDims.WF S2000x640 S640x112 S2000x112 [1] [0] [0] [1] [] []
  scatter_S50000_S600000x1_S600000_n_0_0_1_wf : ScatterDims.WF S50000 S600000x1 S600000 [] [0] [0] 1
  dot_S2000x128_S128x128_S2000x128_1_0_0_1_n_n_wf : DotDims.WF S2000x128 S128x128 S2000x128 [1] [0] [0] [1] [] []
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x640.size a ≤ S50000x640.size a
  hwx0_0 : ∀ i : grid0.Coords, EltTy.bits .f32 = 32 ∨ (Rect.block (s := S50000x640) S2000x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x112.size a ≤ S640x112.size a
  hwx0_1 : ∀ i : grid0.Coords, EltTy.bits .f32 = 32 ∨ (Rect.block (s := S640x112) S640x112.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x112.size a ≤ S1x112.size a
  hwx0_2 : ∀ i : grid0.Coords, EltTy.bits .f32 = 32 ∨ (Rect.block (s := S1x112) S1x112.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x16.size a ≤ S50000x16.size a
  hwx0_3 : ∀ i : grid0.Coords, EltTy.bits .f32 = 32 ∨ (Rect.block (s := S50000x16) S2000x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S50000x1.size a
  hwx4_3 : ∀ i : grid4.Coords, EltTy.bits .f32 = 32 ∨ (Rect.block (s := S50000x1) S2000x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)

variable [Facts₀]

def gather_S5x16_S50000x1_S50000x16_1_0_n_n_0_1_116 : GatherDims S5x16 S50000x1 S50000x16 where
  offsetDims := [1]
  collapsedSliceDims := [0]
  operandBatchingDims := []
  startIndicesBatchingDims := []
  startIndexMap := [0]
  indexVectorDim := 1
  sliceSizes := ![1, 16]
  wf := gather_S5x16_S50000x1_S50000x16_1_0_n_n_0_1_116_wf
def dot_S2000x640_S640x112_S2000x112_1_0_0_1_n_n : DotDims S2000x640 S640x112 S2000x112 where
  lhsContracting := [1]
  rhsContracting := [0]
  lhsNonContracting := [0]
  rhsNonContracting := [1]
  lhsBatch := []
  rhsBatch := []
  wf := dot_S2000x640_S640x112_S2000x112_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S2000x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S640x112.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x112.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v8) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v54) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v56) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v56) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v89) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v61) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v90) S2000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v91) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v92) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v92) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v94) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v95) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x640 : Shape := ⟨2, ![50000, 640]⟩
abbrev S50000 : Shape := ⟨1, ![50000]⟩
abbrev S2x600000 : Shape := ⟨2, ![2, 600000]⟩
abbrev S640x112 : Shape := ⟨2, ![640, 112]⟩
abbrev S112 : Shape := ⟨1, ![112]⟩
abbrev S5x16 : Shape := ⟨2, ![5, 16]⟩
abbrev S2x128x128 : Shape := ⟨3, ![2, 128, 128]⟩
abbrev S2x128 : Shape := ⟨2, ![2, 128]⟩
abbrev S128 : Shape := ⟨1, ![128]⟩
abbrev S50000x112 : Shape := ⟨2, ![50000, 112]⟩
abbrev S1x112 : Shape := ⟨2, ![1, 112]⟩
abbrev S_ : Shape := ⟨0, ![]⟩
abbrev S50000x1 : Shape := ⟨2, ![50000, 1]⟩
abbrev S50000x16 : Shape := ⟨2, ![50000, 16]⟩
abbrev S50000x128 : Shape := ⟨2, ![50000, 128]⟩
abbrev S1x600000 : Shape := ⟨2, ![1, 600000]⟩
abbrev S600000 : Shape := ⟨1, ![600000]⟩
abbrev S600000x1 : Shape := ⟨2, ![600000, 1]⟩
abbrev S1x128x128 : Shape := ⟨3, ![1, 128, 128]⟩
abbrev S128x128 : Shape := ⟨2, ![128, 128]⟩
abbrev S1x128 : Shape := ⟨2, ![1, 128]⟩
abbrev S600000x128 : Shape := ⟨2, ![600000, 128]⟩

abbrev nBuf : Space → Nat
  | .hbm => 171
  | .vmem => 0
  | .smem => 0
  | _ => 0

abbrev hbmTy0_0 (i : Nat) : BufTy := match i % 128 with
  | 0 => ⟨S50000x640, .f32⟩
  | 1 => ⟨S50000, .i32⟩
  | 2 => ⟨S2x600000, .i32⟩
  | 3 => ⟨S640x112, .f32⟩
  | 4 => ⟨S112, .f32⟩
  | 5 => ⟨S5x16, .f32⟩
  | 6 => ⟨S2x128x128, .f32⟩
  | 7 => ⟨S2x128, .f32⟩
  | 8 => ⟨S128, .f32⟩
  | 9 => ⟨S128, .f32⟩
  | 10 => ⟨S50000x112, .f32⟩
  | 11 => ⟨S1x112, .f32⟩
  | 12 => ⟨S50000x112, .f32⟩
  | 13 => ⟨S50000x112, .f32⟩
  | 14 => ⟨S_, .i32⟩
  | 15 => ⟨S50000, .i32⟩
  | 16 => ⟨S50000, .i1⟩
  | 17 => ⟨S_, .i32⟩
  | 18 => ⟨S50000, .i32⟩
  | 19 => ⟨S50000, .i32⟩
  | 20 => ⟨S50000, .i32⟩
  | 21 => ⟨S50000x1, .i32⟩
  | 22 => ⟨S50000x16, .f32⟩
  | 23 => ⟨S50000x128, .f32⟩
  | 24 => ⟨S1x600000, .i32⟩
  | 25 => ⟨S600000, .i32⟩
  | 26 => ⟨S1x600000, .i32⟩
  | 27 => ⟨S600000, .i32⟩
  | 28 => ⟨S_, .f32⟩
  | 29 => ⟨S600000, .f32⟩
  | 30 => ⟨S_, .f32⟩
  | 31 => ⟨S50000, .f32⟩
  | 32 => ⟨S600000x1, .i32⟩
  | 33 => ⟨S50000, .f32⟩
  | 34 => ⟨S_, .f32⟩
  | 35 => ⟨S50000, .f32⟩
  | 36 => ⟨S50000, .f32⟩
  | 37 => ⟨S50000, .f32⟩
  | 38 => ⟨S1x128x128, .f32⟩
  | 39 => ⟨S128x128, .f32⟩
  | 40 => ⟨S1x128, .f32⟩
  | 41 => ⟨S128, .f32⟩
  | 42 => ⟨S50000x128, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000, .f32⟩
  | 61 => ⟨S600000, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000x128, .f32⟩
  | 71 => ⟨S600000x1, .f32⟩
  | 72 => ⟨S600000x128, .f32⟩
  | 73 => ⟨S600000x128, .f32⟩
  | 74 => ⟨S_, .f32⟩
  | 75 => ⟨S50000x128, .f32⟩
  | 76 => ⟨S600000x1, .i32⟩
  | 77 => ⟨S50000x128, .f32⟩
  | 78 => ⟨S50000, .f32⟩
  | 79 => ⟨S50000x1, .f32⟩
  | 80 => ⟨S50000x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S1x128x128, .f32⟩
  | 91 => ⟨S128x128, .f32⟩
  | 92 => ⟨S1x128, .f32⟩
  | 93 => ⟨S128, .f32⟩
  | 94 => ⟨S50000x128, .f32⟩
  | 95 => ⟨S_, .i32⟩
  | 96 => ⟨S600000, .i32⟩
  | 97 => ⟨S600000, .i1⟩
  | 98 => ⟨S_, .i32⟩
  | 99 => ⟨S600000, .i32⟩
  | 100 => ⟨S600000, .i32⟩
  | 101 => ⟨S600000, .i32⟩
  | 102 => ⟨S600000x1, .i32⟩
  | 103 => ⟨S600000, .f32⟩
  | 104 => ⟨S_, .i32⟩
  | 105 => ⟨S600000, .i32⟩
  | 106 => ⟨S600000, .i1⟩
  | 107 => ⟨S_, .i32⟩
  | 108 => ⟨S600000, .i32⟩
  | 109 => ⟨S600000, .i32⟩
  | 110 => ⟨S600000, .i32⟩
  | 111 => ⟨S600000x1, .i32⟩
  | 112 => ⟨S600000, .f32⟩
  | 113 => ⟨S600000, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x128, .f32⟩
  | 123 => ⟨S600000x1, .f32⟩
  | 124 => ⟨S600000x128, .f32⟩
  | 125 => ⟨S600000x128, .f32⟩
  | 126 => ⟨S_, .f32⟩
  | 127 => ⟨S50000x128, .f32⟩
  | _ => ⟨S50000x640, .f32⟩

abbrev hbmTy0_1 (i : Nat) : BufTy := match i % 128 with
  | 0 => ⟨S600000x1, .i32⟩
  | 1 => ⟨S50000x128, .f32⟩
  | 2 => ⟨S50000, .f32⟩
  | 3 => ⟨S50000x1, .f32⟩
  | 4 => ⟨S50000x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S50000x128, .f32⟩
  | 14 => ⟨S_, .f32⟩
  | 15 => ⟨S50000, .f32⟩
  | 16 => ⟨S50000x1, .f32⟩
  | 17 => ⟨S_, .f32⟩
  | 18 => ⟨S50000x1, .f32⟩
  | 19 => ⟨S50000x1, .f32⟩
  | 20 => ⟨S50000x128, .f32⟩
  | 21 => ⟨S50000x128, .f32⟩
  | 22 => ⟨S50000x128, .f32⟩
  | 23 => ⟨S_, .f32⟩
  | 24 => ⟨S50000, .f32⟩
  | 25 => ⟨S50000x1, .f32⟩
  | 26 => ⟨S_, .f32⟩
  | 27 => ⟨S50000x1, .f32⟩
  | 28 => ⟨S50000x1, .f32⟩
  | 29 => ⟨S50000x128, .f32⟩
  | 30 => ⟨S50000x128, .f32⟩
  | 31 => ⟨S_, .f32⟩
  | 32 => ⟨S50000x1, .f32⟩
  | 33 => ⟨S50000x1, .f32⟩
  | 34 => ⟨S50000x1, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | _ => ⟨S50000x640, .f32⟩

abbrev hbmTy (i : Nat) : BufTy := match i / 128 with
  | 0 => hbmTy0_0 i
  | 1 => hbmTy0_1 i
  | _ => ⟨S50000x640, .f32⟩

abbrev bufTy : (tb : Table) → Fin (tcTables nBuf tb) → BufTy
  | .hbm, ⟨i, _⟩ => hbmTy i
  | _, _ => ⟨S50000x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_7 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_call0_cst : Ref sig .tc := ⟨.hbm, 86, rfl⟩
abbrev main_call0_v0 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_10 : Ref sig .tc := ⟨.hbm, 95, rfl⟩
abbrev main_v71 : Ref sig .tc := ⟨.hbm, 96, rfl⟩
abbrev main_v72 : Ref sig .tc := ⟨.hbm, 97, rfl⟩
abbrev main_c_11 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_12 : Ref sig .tc := ⟨.hbm, 104, rfl⟩
abbrev main_v78 : Ref sig .tc := ⟨.hbm, 105, rfl⟩
abbrev main_v79 : Ref sig .tc := ⟨.hbm, 106, rfl⟩
abbrev main_c_13 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_c_14 : Ref sig .tc := ⟨.hbm, 114, rfl⟩
abbrev main_v86 : Ref sig .tc := ⟨.hbm, 115, rfl⟩
abbrev main_v87 : Ref sig .tc := ⟨.hbm, 116, rfl⟩
abbrev main_c_15 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_16 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_call1_cst : Ref sig .tc := ⟨.hbm, 138, rfl⟩
abbrev main_call1_v0 : Ref sig .tc := ⟨.hbm, 139, rfl⟩
abbrev main_v107 : Ref sig .tc := ⟨.hbm, 140, rfl⟩
abbrev main_v108 : Ref sig .tc := ⟨.hbm, 141, rfl⟩
abbrev main_cst_17 : Ref sig .tc := ⟨.hbm, 142, rfl⟩
abbrev main_v109 : Ref sig .tc := ⟨.hbm, 143, rfl⟩
abbrev main_v110 : Ref sig .tc := ⟨.hbm, 144, rfl⟩
abbrev main_cst_18 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_19 : Ref sig .tc := ⟨.hbm, 151, rfl⟩
abbrev main_v116 : Ref sig .tc := ⟨.hbm, 152, rfl⟩
abbrev main_v117 : Ref sig .tc := ⟨.hbm, 153, rfl⟩
abbrev main_cst_20 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_cst_21 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩

abbrev nD : Nat := 1
abbrev τ : Topo := Topo.v7x

variable {F : FTy → Type} [FloatOps F]

class Facts₀ : Prop where
  bcast_S112_S1x112_1 : S112.BroadcastsInDim S1x112 (![1] : Fin 1 → Fin S1x112.rank)
  bcast_S1x112_S50000x112_0_1 : S1x112.BroadcastsInDim S50000x112 (![0, 1] : Fin 2 → Fin S50000x112.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x112_S50000x16_S50000x128_d1 : Shape.Concatenates [S50000x112, S50000x16] S50000x128 1
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x128x128_S1x128x128_1_0_0 : S2x128x128.Slices ![1, 0, 0] S1x128x128
  slices_S2x128_S1x128_1_0 : S2x128.Slices ![1, 0] S1x128
  reducesTo_S50000x128_S50000_d1 : S50000x128.ReducesTo [1] S50000
  h_S_ : 0 < S_.numel
  bcast_S_S50000x1 : S_.BroadcastsInDim S50000x1 (![] : Fin 0 → Fin S50000x1.rank)
  dot_S50000x640_S640x112_S50000x112_1_0_0_1_n_n_wf : DotDims.WF S50000x640 S640x112 S50000x112 [1] [0] [0] [1] [] []
  gather_S5x16_S50000x1_S50000x16_1_0_n_n_0_1_116_wf : GatherDims.WF S5x16 S50000x1 S50000x16 [1] [0] [] [0] [] 1 ![1, 16]
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x640_S640x112_S50000x112_1_0_0_1_n_n : DotDims S50000x640 S640x112 S50000x112 where
  lhsContracting := [1]
  rhsContracting := [0]
  lhsNonContracting := [0]
  rhsNonContracting := [1]
  lhsBatch := []
  rhsBatch := []
  wf := dot_S50000x640_S640x112_S50000x112_1_0_0_1_n_n_wf
def gather_S5x16_S50000x1_S50000x16_1_0_n_n_0_1_116 : GatherDims S5x16 S50000x1 S50000x16 where
  offsetDims := [1]
  collapsedSliceDims := [0]
  operandBatchingDims := []
  startIndicesBatchingDims := []
  startIndexMap := [0]
  indexVectorDim := 1
  sliceSizes := ![1, 16]
  wf := gather_S5x16_S50000x1_S50000x16_1_0_n_n_0_1_116_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KernelRun.lean ====
/-
  The idealized kernel's run, with its result named.  @main is twelve segments: six stretches of host operations and
  six kernel launches.  The contents of every buffer at each segment boundary are a fold from the launch memory: a host
  stretch applies its operations, a launch leaves each of its arrays at what its write-backs leave and every other buffer
  as it was.  Here the run's final state is read at the result buffer as well as at the arguments: the result array holds
  the fold's last contents `W12` at the result buffer, and each argument array is unchanged.
-/
import proofs.«161596_j49563922595873_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array then holds the last boundary's
    contents at the result buffer, and the argument arrays are as launched. -/
theorem run_result : θ_run defs (onTc (τ := τ) (main (F := F))) ⟨m, fun _ => 0, ρ⟩ (fun r => ∀ c : Dev nD,
      r.2.mem ((c.tc : Thread nD τ).loc main_v95) = W12 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v95 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.Hand

end
-- ==== Proof.Network.lean ====
/-
  The network as one function of its ten argument arrays, on the extended reals.

  A node feature matrix is built by a projection `llm_feat · proj_W + proj_b` (a 640-term sum per entry) laid side by side
  with one of five embedding rows per node; the inverse square root of each node's degree (one plus the number of edges
  that end at it) is computed once; two graph-convolution layers follow, each adding to `x` the positive part of
  `agg + (x · W) ∘ dinv² + b`, where `agg` sums, into each edge's end node, the row of `x · W` at the edge's start node
  scaled by the two endpoint factors; last, every row is normalised to mean zero and unit variance (plus a small
  constant under the root) and scaled and shifted per column.

  Each stage is written once, over whole arrays, with the host's operations; both programs are compared to this one text.
-/
import proofs.«161596_j49563922595873_1_alg».proof.Proof.Gen.ReferenceIdeal
import Idealize.ShloMosaic.PureOps.Ideal
import Idealize.ShloMosaic.Lib.Pipeline.Value

noncomputable section

namespace Cert.Gcn

open Cert.ReferenceIdeal Cert.ReferenceIdeal.Gen Idealize.ShloMosaic

/-- An array of a literal shape and element type at the ideal instance. -/
abbrev Arr (S : Shape) (φ : EltTy) := (⟨S, φ⟩ : BufTy).Contents (Elt Ideal)
/-- A float array of a literal shape: extended reals, index by index. -/
abbrev FArr (S : Shape) := FVec Ideal S .f32

/-- A row of 128 laid along the columns of a [1,128] array. -/
def rowOf (b : FArr S128) : FArr S1x128 := broadcastInDim S1x128 ![1] bcast_S128_S1x128_1 b

/-- A column of 50000 laid along the rows of a [50000,1] array. -/
def colOf (v : FArr S50000) : FArr S50000x1 := broadcastInDim S50000x1 ![0] bcast_S50000_S50000x1_0 v

/-- The projection with its bias row, beside the gathered embedding rows: entry (n, j) is
    `∑ₖ feat(n,k)·W(k,j) + bias(0,j)` for j < 112 and `emb(n, j − 112)` from there on. -/
def projConcat (feat : FArr S50000x640) (w : FArr S640x112) (bias : FArr S1x112) (emb : FArr S50000x16) :
    FArr S50000x128 :=
  concatenate S50000x128 1 [⟨S50000x112, (addf (Host.dotGeneral dot_S50000x640_S640x112_S50000x112_1_0_0_1_n_n none feat w) (broadcastInDim S50000x112 ![0, 1] bcast_S1x112_S50000x112_0_1 bias) : FVec Ideal S50000x112 .f32)⟩, ⟨S50000x16, emb⟩] concatenates_S50000x112_S50000x16_S50000x128_d1

/-- The product of the node features with a 128 × 128 weight matrix. -/
def dot128 (x : FArr S50000x128) (w : FArr S128x128) : FArr S50000x128 :=
  Host.dotGeneral dot_S50000x128_S128x128_S50000x128_1_0_0_1_n_n none x w

/-- One layer's update from its five ingredients: `x + max((agg + xw ∘ sn) + b, 0)`, the column `sn` spread along the
    rows and the row `b` along the columns. -/
def residual (x agg xw : FArr S50000x128) (sn : FArr S50000x1) (b : FArr S1x128) : FArr S50000x128 :=
  addf x (maximumf (addf (addf agg (mulf xw (broadcastInDim S50000x128 ![0, 1] bcast_S50000x1_S50000x128_0_1 sn))) (broadcastInDim S50000x128 ![0, 1] bcast_S1x128_S50000x128_0_1 b)) (broadcastInDim S50000x128 ![] bcast_S_S50000x128 (constant S_ .f32 0x00000000#32)))

/-- A row's mean: its sum over the 128 columns, from zero, divided by 128. -/
def rowMean (x : FArr S50000x128) : FArr S50000x1 :=
  Host.divf (broadcastInDim S50000x1 ![0] bcast_S50000_S50000x1_0 (Host.reduceAdd x (constant S_ .f32 0x00000000#32) reducesTo_S50000x128_S50000_d1 h_S_)) (broadcastInDim S50000x1 ![] bcast_S_S50000x1 (constant S_ .f32 0x43000000#32))

/-- Row normalisation: `(x − mean) · (var + ε)^(−1/2) · g + b`, the variance the mean of the squared deviations. -/
def layerNorm (x : FArr S50000x128) (g b : FArr S1x128) : FArr S50000x128 :=
  addf (mulf (mulf (subf x (broadcastInDim S50000x128 ![0, 1] bcast_S50000x1_S50000x128_0_1 (rowMean x))) (broadcastInDim S50000x128 ![0, 1] bcast_S50000x1_S50000x128_0_1 (Host.rsqrt (addf (rowMean (mulf (subf x (broadcastInDim S50000x128 ![0, 1] bcast_S50000x1_S50000x128_0_1 (rowMean x))) (subf x (broadcastInDim S50000x128 ![0, 1] bcast_S50000x1_S50000x128_0_1 (rowMean x))))) (broadcastInDim S50000x1 ![] bcast_S_S50000x1 (constant S_ .f32 0x3727C5AC#32)))))) (broadcastInDim S50000x128 ![0, 1] bcast_S1x128_S50000x128_0_1 g)) (broadcastInDim S50000x128 ![0, 1] bcast_S1x128_S50000x128_0_1 b)

/-- Row `r` (0 or 1) of the edge list. -/
def edgeRow0 (e : Arr S2x600000 .i32) : Arr S600000 .i32 :=
  shapeCast S600000 (extractStridedSlice S1x600000 ![0, 0] e slices_S2x600000_S1x600000_0_0) shapeCasts_S1x600000_S600000
def edgeRow1 (e : Arr S2x600000 .i32) : Arr S600000 .i32 :=
  shapeCast S600000 (extractStridedSlice S1x600000 ![1, 0] e slices_S2x600000_S1x600000_1_0) shapeCasts_S1x600000_S600000

/-- Node indices made non-negative (a negative index counts from the end), as a column of start indices. -/
def wrapNode (s : Arr S600000 .i32) : Arr S600000x1 .i32 :=
  broadcastInDim S600000x1 ![0] bcast_S600000_S600000x1_0 (select (cmpi .slt s (broadcastInDim S600000 ![] bcast_S_S600000 (constantI S_ 32 0#32))) (addi s (broadcastInDim S600000 ![] bcast_S_S600000 (constantI S_ 32 50000#32))) s)

/-- The embedding row of each node's structure type. -/
def structRows (emb : FArr S5x16) (ids : Arr S50000 .i32) : FArr S50000x16 :=
  Host.gather gather_S5x16_S50000x1_S50000x16_1_0_n_n_0_1_116 emb (broadcastInDim S50000x1 ![0] bcast_S50000_S50000x1_0 (select (cmpi .slt ids (broadcastInDim S50000 ![] bcast_S_S50000 (constantI S_ 32 0#32))) (addi ids (broadcastInDim S50000 ![] bcast_S_S50000 (constantI S_ 32 5#32))) ids))

/-- `deg^(−1/2)`, the degree one plus the number of edges ending at the node. -/
def degInvSqrt (dst : Arr S600000 .i32) : FArr S50000 :=
  Host.rsqrt (addf (broadcastInDim S50000 ![] bcast_S_S50000 (constant S_ .f32 0x3F800000#32)) (Host.scatterAdd scatter_S50000_S600000x1_S600000_n_0_0_1 (broadcastInDim S50000 ![] bcast_S_S50000 (constant S_ .f32 0x00000000#32)) (broadcastInDim S600000x1 ![0] bcast_S600000_S600000x1_0 dst) (broadcastInDim S600000 ![] bcast_S_S600000 (constant S_ .f32 0x3F800000#32))))

/-- The messages summed into their end nodes: row `xw[src e] · dinv[src e] · dinv[dst e]` added into row `dst e`. -/
def aggregate (xw : FArr S50000x128) (dinv : FArr S50000) (src dst : Arr S600000 .i32) : FArr S50000x128 :=
  Host.scatterAdd scatter_S50000x128_S600000x1_S600000x128_1_0_0_1 (broadcastInDim S50000x128 ![] bcast_S_S50000x128 (constant S_ .f32 0x00000000#32)) (broadcastInDim S600000x1 ![0] bcast_S600000_S600000x1_0 dst) (mulf (Host.gather gather_S50000x128_S600000x1_S600000x128_1_0_n_n_0_1_1128 xw (wrapNode src)) (broadcastInDim S600000x128 ![0, 1] bcast_S600000x1_S600000x128_0_1 (broadcastInDim S600000x1 ![0] bcast_S600000_S600000x1_0 (mulf (Host.gather gather_S50000_S600000x1_S600000_n_0_n_n_0_1_1 dinv (wrapNode src)) (Host.gather gather_S50000_S600000x1_S600000_n_0_n_n_0_1_1 dinv (wrapNode dst))))))

/-- Layer `l`'s weight matrix and bias out of the stacked arrays. -/
def weight0 (ws : FArr S2x128x128) : FArr S128x128 :=
  shapeCast S128x128 (extractStridedSlice S1x128x128 ![0, 0, 0] ws slices_S2x128x128_S1x128x128_0_0_0) shapeCasts_S1x128x128_S128x128
def weight1 (ws : FArr S2x128x128) : FArr S128x128 :=
  shapeCast S128x128 (extractStridedSlice S1x128x128 ![1, 0, 0] ws slices_S2x128x128_S1x128x128_1_0_0) shapeCasts_S1x128x128_S128x128
def bias0 (bs : FArr S2x128) : FArr S128 :=
  shapeCast S128 (extractStridedSlice S1x128 ![0, 0] bs slices_S2x128_S1x128_0_0) shapeCasts_S1x128_S128
def bias1 (bs : FArr S2x128) : FArr S128 :=
  shapeCast S128 (extractStridedSlice S1x128 ![1, 0] bs slices_S2x128_S1x128_1_0) shapeCasts_S1x128_S128

/-- One graph-convolution layer with its residual connection. -/
def layer (x : FArr S50000x128) (w : FArr S128x128) (b : FArr S128) (dinv : FArr S50000) (src dst : Arr S600000 .i32) :
    FArr S50000x128 :=
  residual x (aggregate (dot128 x w) dinv src dst) (dot128 x w) (colOf (mulf dinv dinv)) (rowOf b)

/-- The node features the layers start from. -/
def features (a0 : FArr S50000x640) (a1 : Arr S50000 .i32) (a3 : FArr S640x112) (a4 : FArr S112) (a5 : FArr S5x16) :
    FArr S50000x128 :=
  projConcat a0 a3 (broadcastInDim S1x112 ![1] bcast_S112_S1x112_1 a4) (structRows a5 a1)

/-- The whole network. -/
def network (a0 : FArr S50000x640) (a1 : Arr S50000 .i32) (a2 : Arr S2x600000 .i32) (a3 : FArr S640x112) (a4 : FArr S112)
    (a5 : FArr S5x16) (a6 : FArr S2x128x128) (a7 : FArr S2x128) (a8 a9 : FArr S128) : FArr S50000x128 :=
  layerNorm
    (layer (layer (features a0 a1 a3 a4 a5) (weight0 a6) (bias0 a7) (degInvSqrt (edgeRow1 a2)) (edgeRow0 a2) (edgeRow1 a2))
      (weight1 a6) (bias1 a7) (degInvSqrt (edgeRow1 a2)) (edgeRow0 a2) (edgeRow1 a2))
    (rowOf a8) (rowOf a9)

/-! ## The same network with three operands re-laid instead of spread

A [128] row viewed as [1,128], a [50000] column viewed as [50000,1] and a [112] row viewed as [1,112] hold the same numbers
whether the view is taken by re-laying the elements in row-major order or by spreading along a new unit axis: both read
entry `j` (or `r`) of the original.  The kernel's host code re-lays; the reference spreads. -/

theorem casts_S128_S1x128 : S128.ShapeCasts S1x128 := by decide
theorem casts_S50000_S50000x1 : S50000.ShapeCasts S50000x1 := by decide
theorem casts_S112_S1x112 : S112.ShapeCasts S1x112 := by decide

/-- A row of 128 re-laid as a [1,128] array. -/
def rowCast (b : FArr S128) : FArr S1x128 := shapeCast S1x128 b casts_S128_S1x128
/-- A column of 50000 re-laid as a [50000,1] array. -/
def colCast (v : FArr S50000) : FArr S50000x1 := shapeCast S50000x1 v casts_S50000_S50000x1
/-- A row of 112 re-laid as a [1,112] array. -/
def biasCast (b : FArr S112) : FArr S1x112 := shapeCast S1x112 b casts_S112_S1x112

/-- The source entry a [S1x128] index reads. -/
abbrev entry128 (i : S1x128.Idx) : S128.Idx := fun a => match a with
  | ⟨0, _⟩ => ⟨(i 1).val, (i 1).isLt⟩

theorem rowCast_eq (b : FArr S128) : rowCast b = rowOf b := by
  funext i
  unfold rowCast rowOf
  rw [shapeCast_apply b casts_S128_S1x128 i (entry128 i) (by
      rw [Shape.rowMajor_val_one, Shape.rowMajor_val_two]
      have h0 : (i 0).val < 1 := (i 0).isLt
      show (i 1).val = (i 0).val * 128 + (i 1).val
      omega),
    broadcastInDim_apply _ bcast_S128_S1x128_1 b i (entry128 i) (fun a => match a with
      | ⟨0, _⟩ => by show (i 1).val = if (128 : Nat) = 1 then 0 else (i 1).val; rw [if_neg (by decide)])]

/-- The source entry a [S50000x1] index reads. -/
abbrev entry50000 (i : S50000x1.Idx) : S50000.Idx := fun a => match a with
  | ⟨0, _⟩ => ⟨(i 0).val, (i 0).isLt⟩

theorem colCast_eq (b : FArr S50000) : colCast b = colOf b := by
  funext i
  unfold colCast colOf
  rw [shapeCast_apply b casts_S50000_S50000x1 i (entry50000 i) (by
      rw [Shape.rowMajor_val_one, Shape.rowMajor_val_two]
      have h0 : (i 1).val < 1 := (i 1).isLt
      show (i 0).val = (i 0).val * 1 + (i 1).val
      omega),
    broadcastInDim_apply _ bcast_S50000_S50000x1_0 b i (entry50000 i) (fun a => match a with
      | ⟨0, _⟩ => by show (i 0).val = if (50000 : Nat) = 1 then 0 else (i 0).val; rw [if_neg (by decide)])]

/-- The source entry a [S1x112] index reads. -/
abbrev entry112 (i : S1x112.Idx) : S112.Idx := fun a => match a with
  | ⟨0, _⟩ => ⟨(i 1).val, (i 1).isLt⟩

theorem biasCast_eq (b : FArr S112) : biasCast b = broadcastInDim S1x112 ![1] bcast_S112_S1x112_1 b := by
  funext i
  unfold biasCast
  rw [shapeCast_apply b casts_S112_S1x112 i (entry112 i) (by
      rw [Shape.rowMajor_val_one, Shape.rowMajor_val_two]
      have h0 : (i 0).val < 1 := (i 0).isLt
      show (i 1).val = (i 0).val * 112 + (i 1).val
      omega),
    broadcastInDim_apply _ bcast_S112_S1x112_1 b i (entry112 i) (fun a => match a with
      | ⟨0, _⟩ => by show (i 1).val = if (112 : Nat) = 1 then 0 else (i 1).val; rw [if_neg (by decide)])]

/-- One layer, its column of squared factors and its bias row re-laid. -/
def layerCast (x : FArr S50000x128) (w : FArr S128x128) (b : FArr S128) (dinv : FArr S50000) (src dst : Arr S600000 .i32) :
    FArr S50000x128 :=
  residual x (aggregate (dot128 x w) dinv src dst) (dot128 x w) (colCast (mulf dinv dinv)) (rowCast b)

/-- The whole network in that form. -/
def networkCast (a0 : FArr S50000x640) (a1 : Arr S50000 .i32) (a2 : Arr S2x600000 .i32) (a3 : FArr S640x112) (a4 : FArr S112)
    (a5 : FArr S5x16) (a6 : FArr S2x128x128) (a7 : FArr S2x128) (a8 a9 : FArr S128) : FArr S50000x128 :=
  layerNorm
    (layerCast (layerCast (projConcat a0 a3 (biasCast a4) (structRows a5 a1)) (weight0 a6) (bias0 a7) (degInvSqrt (edgeRow1 a2)) (edgeRow0 a2) (edgeRow1 a2))
      (weight1 a6) (bias1 a7) (degInvSqrt (edgeRow1 a2)) (edgeRow0 a2) (edgeRow1 a2))
    (rowCast a8) (rowCast a9)

/-- The two forms are one function. -/
theorem networkCast_eq (a0 : FArr S50000x640) (a1 : Arr S50000 .i32) (a2 : Arr S2x600000 .i32) (a3 : FArr S640x112) (a4 : FArr S112)
    (a5 : FArr S5x16) (a6 : FArr S2x128x128) (a7 : FArr S2x128) (a8 a9 : FArr S128) :
    networkCast a0 a1 a2 a3 a4 a5 a6 a7 a8 a9 = network a0 a1 a2 a3 a4 a5 a6 a7 a8 a9 := by
  unfold networkCast network layerCast layer features
  rw [biasCast_eq, rowCast_eq, rowCast_eq, rowCast_eq, rowCast_eq, colCast_eq]

end Cert.Gcn

end
-- ==== Proof.DotSums.lean ====
/-
  The four matrix products of this network, each entry written as a plain sum.  A product of an [M, K] array with a
  [K, N] array contracts the first's columns against the second's rows: entry (r, j) is `∑ₖ l(r, k) · r(k, j)`.  The
  kernel forms such products block by block (2000 rows at a time) on the matrix unit, into a zero accumulator; the host
  forms them over all 50000 rows at once.  Both read, on the extended reals, as the same K-term sum; here the sum over the
  record's own contraction index is re-indexed over `Fin K` with the operand indices spelt out.
-/
import proofs.«161596_j49563922595873_1_alg».proof.Proof.Gen.KernelIdeal
import proofs.«161596_j49563922595873_1_alg».proof.Proof.Gen.ReferenceIdeal
import Idealize.ShloMosaic.Lib.ValueIdx
import Idealize.ShloMosaic.PureOps.Ideal.Laws

noncomputable section

open scoped BigOperators

namespace Cert.Gcn.Dots

open Idealize.ShloMosaic Cert.KernelIdeal.Gen Cert.ReferenceIdeal.Gen

/-! ### `dot_S2000x640_S640x112_S2000x112_1_0_0_1_n_n` -/

/-- The left operand's index at output index `i` and contraction coordinate `k`: (row of `i`, `k`). -/
abbrev lidxKP (i : Cert.KernelIdeal.S2000x112.Idx) (k : Fin 640) : Cert.KernelIdeal.S2000x640.Idx := fun a => match a with
  | ⟨0, _⟩ => ⟨(i 0).val, (i 0).isLt⟩
  | ⟨1, _⟩ => ⟨k.val, k.isLt⟩
/-- The right operand's index: (`k`, column of `i`). -/
abbrev ridxKP (i : Cert.KernelIdeal.S2000x112.Idx) (k : Fin 640) : Cert.KernelIdeal.S640x112.Idx := fun a => match a with
  | ⟨0, _⟩ => ⟨k.val, k.isLt⟩
  | ⟨1, _⟩ => ⟨(i 1).val, (i 1).isLt⟩

theorem lhsKP_0 (i : Cert.KernelIdeal.S2000x112.Idx) (q : Cert.KernelIdeal.dot_S2000x640_S640x112_S2000x112_1_0_0_1_n_n.contr.Idx) : (Cert.KernelIdeal.dot_S2000x640_S640x112_S2000x112_1_0_0_1_n_n.lhsIdx i q 0).val = (i 0).val := by
  unfold DotDims.lhsIdx
  rw [dif_neg (show ¬(0 : Fin Cert.KernelIdeal.S2000x640.rank) ∈ Cert.KernelIdeal.dot_S2000x640_S640x112_S2000x112_1_0_0_1_n_n.lhsBatch by decide), dif_pos (show (0 : Fin Cert.KernelIdeal.S2000x640.rank) ∈ Cert.KernelIdeal.dot_S2000x640_S640x112_S2000x112_1_0_0_1_n_n.lhsNonContracting by decide)]
  rfl
theorem lhsKP_1 (i : Cert.KernelIdeal.S2000x112.Idx) (q : Cert.KernelIdeal.dot_S2000x640_S640x112_S2000x112_1_0_0_1_n_n.contr.Idx) : (Cert.KernelIdeal.dot_S2000x640_S640x112_S2000x112_1_0_0_1_n_n.lhsIdx i q 1).val = (q ⟨0, by decide⟩).val :=
  Cert.KernelIdeal.dot_S2000x640_S640x112_S2000x112_1_0_0_1_n_n.lhsIdx_val_of_single rfl i q
theorem rhsKP_0 (i : Cert.KernelIdeal.S2000x112.Idx) (q : Cert.KernelIdeal.dot_S2000x640_S640x112_S2000x112_1_0_0_1_n_n.contr.Idx) : (Cert.KernelIdeal.dot_S2000x640_S640x112_S2000x112_1_0_0_1_n_n.rhsIdx i q 0).val = (q ⟨0, by decide⟩).val :=
  Cert.KernelIdeal.dot_S2000x640_S640x112_S2000x112_1_0_0_1_n_n.rhsIdx_val_of_single rfl i q
theorem rhsKP_1 (i : Cert.KernelIdeal.S2000x112.Idx) (q : Cert.KernelIdeal.dot_S2000x640_S640x112_S2000x112_1_0_0_1_n_n.contr.Idx) : (Cert.KernelIdeal.dot_S2000x640_S640x112_S2000x112_1_0_0_1_n_n.rhsIdx i q 1).val = (i 1).val := by
  unfold DotDims.rhsIdx
  rw [dif_neg (show ¬(1 : Fin Cert.KernelIdeal.S640x112.rank) ∈ Cert.KernelIdeal.dot_S2000x640_S640x112_S2000x112_1_0_0_1_n_n.rhsBatch by decide), dif_pos (show (1 : Fin Cert.KernelIdeal.S640x112.rank) ∈ Cert.KernelIdeal.dot_S2000x640_S640x112_S2000x112_1_0_0_1_n_n.rhsNonContracting by decide)]
  rfl

/-- The contraction of this product, as a sum over the 640 contracted coordinates. -/
theorem sumKP (l : Cert.KernelIdeal.S2000x640.Idx → EReal) (r : Cert.KernelIdeal.S640x112.Idx → EReal) (i : Cert.KernelIdeal.S2000x112.Idx) :
    ∑ q : Cert.KernelIdeal.dot_S2000x640_S640x112_S2000x112_1_0_0_1_n_n.contr.Idx, l (Cert.KernelIdeal.dot_S2000x640_S640x112_S2000x112_1_0_0_1_n_n.lhsIdx i q) * r (Cert.KernelIdeal.dot_S2000x640_S640x112_S2000x112_1_0_0_1_n_n.rhsIdx i q) = ∑ k : Fin 640, l (lidxKP i k) * r (ridxKP i k) := by
  rw [← Equiv.sum_comp (ValueIdx.contrEquiv1 Cert.KernelIdeal.dot_S2000x640_S640x112_S2000x112_1_0_0_1_n_n 640 rfl rfl).symm]
  refine Finset.sum_congr rfl fun k _ => ?_
  have hk := ValueIdx.contrEquiv1_symm_val Cert.KernelIdeal.dot_S2000x640_S640x112_S2000x112_1_0_0_1_n_n 640 rfl rfl k
  have el : Cert.KernelIdeal.dot_S2000x640_S640x112_S2000x112_1_0_0_1_n_n.lhsIdx i ((ValueIdx.contrEquiv1 Cert.KernelIdeal.dot_S2000x640_S640x112_S2000x112_1_0_0_1_n_n 640 rfl rfl).symm k) = lidxKP i k := funext fun a => Fin.ext (by
    match a with
    | ⟨0, _⟩ => exact lhsKP_0 _ _
    | ⟨1, _⟩ => exact (lhsKP_1 _ _).trans hk)
  have er : Cert.KernelIdeal.dot_S2000x640_S640x112_S2000x112_1_0_0_1_n_n.rhsIdx i ((ValueIdx.contrEquiv1 Cert.KernelIdeal.dot_S2000x640_S640x112_S2000x112_1_0_0_1_n_n 640 rfl rfl).symm k) = ridxKP i k := funext fun a => Fin.ext (by
    match a with
    | ⟨0, _⟩ => exact (rhsKP_0 _ _).trans hk
    | ⟨1, _⟩ => exact rhsKP_1 _ _)
  rw [el, er]

/-! ### `dot_S2000x128_S128x128_S2000x128_1_0_0_1_n_n` -/

/-- The left operand's index at output index `i` and contraction coordinate `k`: (row of `i`, `k`). -/
abbrev lidxKW (i : Cert.KernelIdeal.S2000x128.Idx) (k : Fin 128) : Cert.KernelIdeal.S2000x128.Idx := fun a => match a with
  | ⟨0, _⟩ => ⟨(i 0).val, (i 0).isLt⟩
  | ⟨1, _⟩ => ⟨k.val, k.isLt⟩
/-- The right operand's index: (`k`, column of `i`). -/
abbrev ridxKW (i : Cert.KernelIdeal.S2000x128.Idx) (k : Fin 128) : Cert.KernelIdeal.S128x128.Idx := fun a => match a with
  | ⟨0, _⟩ => ⟨k.val, k.isLt⟩
  | ⟨1, _⟩ => ⟨(i 1).val, (i 1).isLt⟩

theorem lhsKW_0 (i : Cert.KernelIdeal.S2000x128.Idx) (q : Cert.KernelIdeal.dot_S2000x128_S128x128_S2000x128_1_0_0_1_n_n.contr.Idx) : (Cert.KernelIdeal.dot_S2000x128_S128x128_S2000x128_1_0_0_1_n_n.lhsIdx i q 0).val = (i 0).val := by
  unfold DotDims.lhsIdx
  rw [dif_neg (show ¬(0 : Fin Cert.KernelIdeal.S2000x128.rank) ∈ Cert.KernelIdeal.dot_S2000x128_S128x128_S2000x128_1_0_0_1_n_n.lhsBatch by decide), dif_pos (show (0 : Fin Cert.KernelIdeal.S2000x128.rank) ∈ Cert.KernelIdeal.dot_S2000x128_S128x128_S2000x128_1_0_0_1_n_n.lhsNonContracting by decide)]
  rfl
theorem lhsKW_1 (i : Cert.KernelIdeal.S2000x128.Idx) (q : Cert.KernelIdeal.dot_S2000x128_S128x128_S2000x128_1_0_0_1_n_n.contr.Idx) : (Cert.KernelIdeal.dot_S2000x128_S128x128_S2000x128_1_0_0_1_n_n.lhsIdx i q 1).val = (q ⟨0, by decide⟩).val :=
  Cert.KernelIdeal.dot_S2000x128_S128x128_S2000x128_1_0_0_1_n_n.lhsIdx_val_of_single rfl i q
theorem rhsKW_0 (i : Cert.KernelIdeal.S2000x128.Idx) (q : Cert.KernelIdeal.dot_S2000x128_S128x128_S2000x128_1_0_0_1_n_n.contr.Idx) : (Cert.KernelIdeal.dot_S2000x128_S128x128_S2000x128_1_0_0_1_n_n.rhsIdx i q 0).val = (q ⟨0, by decide⟩).val :=
  Cert.KernelIdeal.dot_S2000x128_S128x128_S2000x128_1_0_0_1_n_n.rhsIdx_val_of_single rfl i q
theorem rhsKW_1 (i : Cert.KernelIdeal.S2000x128.Idx) (q : Cert.KernelIdeal.dot_S2000x128_S128x128_S2000x128_1_0_0_1_n_n.contr.Idx) : (Cert.KernelIdeal.dot_S2000x128_S128x128_S2000x128_1_0_0_1_n_n.rhsIdx i q 1).val = (i 1).val := by
  unfold DotDims.rhsIdx
  rw [dif_neg (show ¬(1 : Fin Cert.KernelIdeal.S128x128.rank) ∈ Cert.KernelIdeal.dot_S2000x128_S128x128_S2000x128_1_0_0_1_n_n.rhsBatch by decide), dif_pos (show (1 : Fin Cert.KernelIdeal.S128x128.rank) ∈ Cert.KernelIdeal.dot_S2000x128_S128x128_S2000x128_1_0_0_1_n_n.rhsNonContracting by decide)]
  rfl

/-- The contraction of this product, as a sum over the 128 contracted coordinates. -/
theorem sumKW (l : Cert.KernelIdeal.S2000x128.Idx → EReal) (r : Cert.KernelIdeal.S128x128.Idx → EReal) (i : Cert.KernelIdeal.S2000x128.Idx) :
    ∑ q : Cert.KernelIdeal.dot_S2000x128_S128x128_S2000x128_1_0_0_1_n_n.contr.Idx, l (Cert.KernelIdeal.dot_S2000x128_S128x128_S2000x128_1_0_0_1_n_n.lhsIdx i q) * r (Cert.KernelIdeal.dot_S2000x128_S128x128_S2000x128_1_0_0_1_n_n.rhsIdx i q) = ∑ k : Fin 128, l (lidxKW i k) * r (ridxKW i k) := by
  rw [← Equiv.sum_comp (ValueIdx.contrEquiv1 Cert.KernelIdeal.dot_S2000x128_S128x128_S2000x128_1_0_0_1_n_n 128 rfl rfl).symm]
  refine Finset.sum_congr rfl fun k _ => ?_
  have hk := ValueIdx.contrEquiv1_symm_val Cert.KernelIdeal.dot_S2000x128_S128x128_S2000x128_1_0_0_1_n_n 128 rfl rfl k
  have el : Cert.KernelIdeal.dot_S2000x128_S128x128_S2000x128_1_0_0_1_n_n.lhsIdx i ((ValueIdx.contrEquiv1 Cert.KernelIdeal.dot_S2000x128_S128x128_S2000x128_1_0_0_1_n_n 128 rfl rfl).symm k) = lidxKW i k := funext fun a => Fin.ext (by
    match a with
    | ⟨0, _⟩ => exact lhsKW_0 _ _
    | ⟨1, _⟩ => exact (lhsKW_1 _ _).trans hk)
  have er : Cert.KernelIdeal.dot_S2000x128_S128x128_S2000x128_1_0_0_1_n_n.rhsIdx i ((ValueIdx.contrEquiv1 Cert.KernelIdeal.dot_S2000x128_S128x128_S2000x128_1_0_0_1_n_n 128 rfl rfl).symm k) = ridxKW i k := funext fun a => Fin.ext (by
    match a with
    | ⟨0, _⟩ => exact (rhsKW_0 _ _).trans hk
    | ⟨1, _⟩ => exact rhsKW_1 _ _)
  rw [el, er]

/-! ### `dot_S50000x640_S640x112_S50000x112_1_0_0_1_n_n` -/

/-- The left operand's index at output index `i` and contraction coordinate `k`: (row of `i`, `k`). -/
abbrev lidxRP (i : Cert.ReferenceIdeal.S50000x112.Idx) (k : Fin 640) : Cert.ReferenceIdeal.S50000x640.Idx := fun a => match a with
  | ⟨0, _⟩ => ⟨(i 0).val, (i 0).isLt⟩
  | ⟨1, _⟩ => ⟨k.val, k.isLt⟩
/-- The right operand's index: (`k`, column of `i`). -/
abbrev ridxRP (i : Cert.ReferenceIdeal.S50000x112.Idx) (k : Fin 640) : Cert.ReferenceIdeal.S640x112.Idx := fun a => match a with
  | ⟨0, _⟩ => ⟨k.val, k.isLt⟩
  | ⟨1, _⟩ => ⟨(i 1).val, (i 1).isLt⟩

theorem lhsRP_0 (i : Cert.ReferenceIdeal.S50000x112.Idx) (q : Cert.ReferenceIdeal.dot_S50000x640_S640x112_S50000x112_1_0_0_1_n_n.contr.Idx) : (Cert.ReferenceIdeal.dot_S50000x640_S640x112_S50000x112_1_0_0_1_n_n.lhsIdx i q 0).val = (i 0).val := by
  unfold DotDims.lhsIdx
  rw [dif_neg (show ¬(0 : Fin Cert.ReferenceIdeal.S50000x640.rank) ∈ Cert.ReferenceIdeal.dot_S50000x640_S640x112_S50000x112_1_0_0_1_n_n.lhsBatch by decide), dif_pos (show (0 : Fin Cert.ReferenceIdeal.S50000x640.rank) ∈ Cert.ReferenceIdeal.dot_S50000x640_S640x112_S50000x112_1_0_0_1_n_n.lhsNonContracting by decide)]
  rfl
theorem lhsRP_1 (i : Cert.ReferenceIdeal.S50000x112.Idx) (q : Cert.ReferenceIdeal.dot_S50000x640_S640x112_S50000x112_1_0_0_1_n_n.contr.Idx) : (Cert.ReferenceIdeal.dot_S50000x640_S640x112_S50000x112_1_0_0_1_n_n.lhsIdx i q 1).val = (q ⟨0, by decide⟩).val :=
  Cert.ReferenceIdeal.dot_S50000x640_S640x112_S50000x112_1_0_0_1_n_n.lhsIdx_val_of_single rfl i q
theorem rhsRP_0 (i : Cert.ReferenceIdeal.S50000x112.Idx) (q : Cert.ReferenceIdeal.dot_S50000x640_S640x112_S50000x112_1_0_0_1_n_n.contr.Idx) : (Cert.ReferenceIdeal.dot_S50000x640_S640x112_S50000x112_1_0_0_1_n_n.rhsIdx i q 0).val = (q ⟨0, by decide⟩).val :=
  Cert.ReferenceIdeal.dot_S50000x640_S640x112_S50000x112_1_0_0_1_n_n.rhsIdx_val_of_single rfl i q
theorem rhsRP_1 (i : Cert.ReferenceIdeal.S50000x112.Idx) (q : Cert.ReferenceIdeal.dot_S50000x640_S640x112_S50000x112_1_0_0_1_n_n.contr.Idx) : (Cert.ReferenceIdeal.dot_S50000x640_S640x112_S50000x112_1_0_0_1_n_n.rhsIdx i q 1).val = (i 1).val := by
  unfold DotDims.rhsIdx
  rw [dif_neg (show ¬(1 : Fin Cert.ReferenceIdeal.S640x112.rank) ∈ Cert.ReferenceIdeal.dot_S50000x640_S640x112_S50000x112_1_0_0_1_n_n.rhsBatch by decide), dif_pos (show (1 : Fin Cert.ReferenceIdeal.S640x112.rank) ∈ Cert.ReferenceIdeal.dot_S50000x640_S640x112_S50000x112_1_0_0_1_n_n.rhsNonContracting by decide)]
  rfl

/-- The contraction of this product, as a sum over the 640 contracted coordinates. -/
theorem sumRP (l : Cert.ReferenceIdeal.S50000x640.Idx → EReal) (r : Cert.ReferenceIdeal.S640x112.Idx → EReal) (i : Cert.ReferenceIdeal.S50000x112.Idx) :
    ∑ q : Cert.ReferenceIdeal.dot_S50000x640_S640x112_S50000x112_1_0_0_1_n_n.contr.Idx, l (Cert.ReferenceIdeal.dot_S50000x640_S640x112_S50000x112_1_0_0_1_n_n.lhsIdx i q) * r (Cert.ReferenceIdeal.dot_S50000x640_S640x112_S50000x112_1_0_0_1_n_n.rhsIdx i q) = ∑ k : Fin 640, l (lidxRP i k) * r (ridxRP i k) := by
  rw [← Equiv.sum_comp (ValueIdx.contrEquiv1 Cert.ReferenceIdeal.dot_S50000x640_S640x112_S50000x112_1_0_0_1_n_n 640 rfl rfl).symm]
  refine Finset.sum_congr rfl fun k _ => ?_
  have hk := ValueIdx.contrEquiv1_symm_val Cert.ReferenceIdeal.dot_S50000x640_S640x112_S50000x112_1_0_0_1_n_n 640 rfl rfl k
  have el : Cert.ReferenceIdeal.dot_S50000x640_S640x112_S50000x112_1_0_0_1_n_n.lhsIdx i ((ValueIdx.contrEquiv1 Cert.ReferenceIdeal.dot_S50000x640_S640x112_S50000x112_1_0_0_1_n_n 640 rfl rfl).symm k) = lidxRP i k := funext fun a => Fin.ext (by
    match a with
    | ⟨0, _⟩ => exact lhsRP_0 _ _
    | ⟨1, _⟩ => exact (lhsRP_1 _ _).trans hk)
  have er : Cert.ReferenceIdeal.dot_S50000x640_S640x112_S50000x112_1_0_0_1_n_n.rhsIdx i ((ValueIdx.contrEquiv1 Cert.ReferenceIdeal.dot_S50000x640_S640x112_S50000x112_1_0_0_1_n_n 640 rfl rfl).symm k) = ridxRP i k := funext fun a => Fin.ext (by
    match a with
    | ⟨0, _⟩ => exact (rhsRP_0 _ _).trans hk
    | ⟨1, _⟩ => exact rhsRP_1 _ _)
  rw [el, er]

/-! ### `dot_S50000x128_S128x128_S50000x128_1_0_0_1_n_n` -/

/-- The left operand's index at output index `i` and contraction coordinate `k`: (row of `i`, `k`). -/
abbrev lidxRW (i : Cert.ReferenceIdeal.S50000x128.Idx) (k : Fin 128) : Cert.ReferenceIdeal.S50000x128.Idx := fun a => match a with
  | ⟨0, _⟩ => ⟨(i 0).val, (i 0).isLt⟩
  | ⟨1, _⟩ => ⟨k.val, k.isLt⟩
/-- The right operand's index: (`k`, column of `i`). -/
abbrev ridxRW (i : Cert.ReferenceIdeal.S50000x128.Idx) (k : Fin 128) : Cert.ReferenceIdeal.S128x128.Idx := fun a => match a with
  | ⟨0, _⟩ => ⟨k.val, k.isLt⟩
  | ⟨1, _⟩ => ⟨(i 1).val, (i 1).isLt⟩

theorem lhsRW_0 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem lhsRW_1 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rhsRW_0 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rhsRW_1 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The contraction of this product, as a sum over the 128 contracted coordinates. -/
theorem sumRW (l : Cert.ReferenceIdeal.S50000x128.Idx → EReal) (r : Cert.ReferenceIdeal.S128x128.Idx → EReal) (i : Cert.ReferenceIdeal.S50000x128.Idx) :
    ∑ q : Cert.ReferenceIdeal.dot_S50000x128_S128x128_S50000x128_1_0_0_1_n_n.contr.Idx, l (Cert.ReferenceIdeal.dot_S50000x128_S128x128_S50000x128_1_0_0_1_n_n.lhsIdx i q) * r (Cert.ReferenceIdeal.dot_S50000x128_S128x128_S50000x128_1_0_0_1_n_n.rhsIdx i q) = ∑ k : Fin 128, l (lidxRW i k) * r (ridxRW i k) := by
  rw [← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((ValueIdx.contrEquiv1 Cert.ReferenceIdeal.dot_S50000x128_S128x128_S50000x128_1_0_0_1_n_n 128 rfl rfl).symm k) = lidxRW i k := funext fun a => Fin.ext (by
    match a with
    | ⟨0, _⟩ => exact lhsRW_0 _ _
    | ⟨1, _⟩ => exact (lhsRW_1 _ _).trans hk)
  have er : Cert.ReferenceIdeal.dot_S50000x128_S128x128_S50000x128_1_0_0_1_n_n.rhsIdx i ((ValueIdx.contrEquiv1 Cert.ReferenceIdeal.dot_S50000x128_S128x128_S50000x128_1_0_0_1_n_n 128 rfl rfl).symm k) = ridxRW i k := funext fun a => Fin.ext (by
    match a with
    | ⟨0, _⟩ => exact (rhsRW_0 _ _).trans hk
    | ⟨1, _⟩ => exact rhsRW_1 _ _)
  rw [el, er]

end Cert.Gcn.Dots

end
-- ==== Proof.Features0.lean ====
/-
  The first launch: the projection and the embedding rows laid side by side.  Grid point `t` loads block `t` (2000 rows) of the
  language-model features and of the gathered embedding rows, and the whole weight matrix and bias row.  It stores two
  pieces into its output block: columns 0 … 111 hold `feat · W + bias` (a 640-term sum per entry, formed on the matrix unit
  into a zero accumulator, plus the bias entry of the column), columns 112 … 127 hold the embedding block as loaded.  The host
  builds the same array by joining the two [50000,112] and [50000,16] arrays along the columns: an entry left of column 112
  is the sum plus the bias, an entry from column 112 on is the embedding entry at the same
  column less 112.  A block of the output is a block of that joined array, and the 25 blocks cover it.
-/
import proofs.«161596_j49563922595873_1_alg».proof.Proof.Gen.KernelIdeal.Frame
import proofs.«161596_j49563922595873_1_alg».proof.Proof.Network
import proofs.«161596_j49563922595873_1_alg».proof.Proof.DotSums
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand.Features0

open Cert.KernelIdeal Cert.KernelIdeal.Gen Cert.Gcn.Dots
open Idealize.ShloMosaic Idealize.ShloMosaic.TcCoe Idealize.ShloMosaic.Tactic Idealize.SL.Sem
open Idealize.ShloMosaic.Pipeline (Dat)

theorem zero_offsets : (![0, 0] : Fin 2 → Nat) = fun _ => 0 := funext fun a => by fin_cases a <;> rfl

/-! ## The two pieces of an output block -/

/-- The rectangle of the projection piece (columns 0 … 111) and of the embedding piece (columns 112 … 127). -/
abbrev rectP : Rect S2000x128 := Rect.unit (s := S2000x128) ![0, 0] S2000x112.size inb_S2000x128_S2000x112_0_0
abbrev rectE : Rect S2000x128 := Rect.unit (s := S2000x128) ![0, 112] S2000x16.size inb_S2000x128_S2000x16_0_112

/-- An index of the block left of column 112, as an index of the projection piece. -/
abbrev inP (y : S2000x128.Idx) (h : (y 1).val < 112) : S2000x112.Idx := fun a => match a with
  | ⟨0, _⟩ => ⟨(y 0).val, (y 0).isLt⟩
  | ⟨1, _⟩ => ⟨(y 1).val, h⟩
/-- An index from column 112 on, as an index of the embedding piece. -/
abbrev inE (y : S2000x128.Idx) (h : 112 ≤ (y 1).val) : S2000x16.Idx := fun a => match a with
  | ⟨0, _⟩ => ⟨(y 0).val, (y 0).isLt⟩
  | ⟨1, _⟩ => ⟨(y 1).val - 112, by have h1 : (y 1).val < 128 := (y 1).isLt; show (y 1).val - 112 < 16; omega⟩

theorem embE (y : S2000x128.Idx) (h : 112 ≤ (y 1).val) : rectE.emb (inE y h) = y :=
  funext fun a => Fin.ext (by
    match a with
    | ⟨0, _⟩ => show 0 + 1 * (y 0).val = (y 0).val; omega
    | ⟨1, _⟩ => show 112 + 1 * ((y 1).val - 112) = (y 1).val; omega)

theorem embP (y : S2000x128.Idx) (h : (y 1).val < 112) : rectP.emb (inP y h) = y :=
  funext fun a => Fin.ext (by
    match a with
    | ⟨0, _⟩ => show 0 + 1 * (y 0).val = (y 0).val; omega
    | ⟨1, _⟩ => show 0 + 1 * (y 1).val = (y 1).val; omega)

theorem not_mem_rectE (y : S2000x128.Idx) (h : (y 1).val < 112) : y ∉ rectE.set := by
  rw [Rect.mem_set_unit]
  intro hy
  have := (hy 1).1
  have e : (![0, 112] : Fin 2 → Nat) 1 = 112 := rfl
  omega

/-- What two stores through these rectangles leave at an index of the block, the embedding piece stored last. -/
theorem pieces_right (wE : S2000x16.Idx → EReal) (wP : S2000x112.Idx → EReal) (y : S2000x128.Idx) (h : 112 ≤ (y 1).val) :
    View.canon (Val := Elt Ideal) (e := .f32) [⟨rectE, wE⟩, ⟨rectP, wP⟩] y = wE (inE y h) := by
  have e := View.canon_cons_emb (Val := Elt Ideal) (e := .f32) rectE wE [⟨rectP, wP⟩] (inE y h)
  rw [embE] at e
  exact e

theorem pieces_left (wE : S2000x16.Idx → EReal) (wP : S2000x112.Idx → EReal) (y : S2000x128.Idx) (h : (y 1).val < 112) :
    View.canon (Val := Elt Ideal) (e := .f32) [⟨rectE, wE⟩, ⟨rectP, wP⟩] y = wP (inP y h) := by
  have e := View.canon_cons_emb (Val := Elt Ideal) (e := .f32) rectP wP [] (inP y h)
  rw [embP] at e
  exact (View.canon_cons_of_not_mem (Val := Elt Ideal) (e := .f32) ⟨rectE, wE⟩ [⟨rectP, wP⟩] (not_mem_rectE y h)).trans e

/-! ## The two payloads at an entry -/

abbrev biasIdx (z : S2000x112.Idx) : S1x112.Idx := fun a => match a with
  | ⟨0, _⟩ => ⟨0, Nat.one_pos⟩
  | ⟨1, _⟩ => ⟨(z 1).val, (z 1).isLt⟩

/-- The projection piece at an entry: the 640-term sum plus the bias entry of the column. -/
theorem projection_apply (x0 : Vec Ideal S2000x640 .f32) (x1 : Vec Ideal S640x112 .f32) (x2 : Vec Ideal S1x112 .f32) (z : S2000x112.Idx) :
    k0_pay1 x0 x1 x2 z = (∑ k : Fin 640, x0 (lidxKP z k) * x1 (ridxKP z k)) + x2 (biasIdx z) := by
  unfold k0_pay1
  rw [shapeCast_self]
  refine Eq.trans (ValueIdx.addf_apply _ _ z) ?_
  rw [broadcastTo_apply x2 broadcasts_S1x112_S2000x112 z (biasIdx z) (fun a => match a with
      | ⟨0, _⟩ => by show 0 = if (1 : Nat) = 1 then 0 else (z 0).val; rw [if_pos rfl]
      | ⟨1, _⟩ => by show (z 1).val = if (112 : Nat) = 1 then 0 else (z 1).val; rw [if_neg (by decide)])]
  exact congrArg (· + x2 (biasIdx z)) ((Ideal.matmul_constant_zero_apply dot_S2000x640_S640x112_S2000x112_1_0_0_1_n_n none _ _ z).trans (sumKP _ _ z))

/-- The embedding piece is the loaded block. -/
theorem embedding_eq (x3 : Vec Ideal S2000x16 .f32) : k0_pay2 x3 = x3 := by
  unfold k0_pay2
  exact shapeCast_self _ _

/-! ## The joined array at an entry -/

abbrev inPW (i : Cert.ReferenceIdeal.S50000x128.Idx) (h : (i 1).val < 112) : Cert.ReferenceIdeal.S50000x112.Idx := fun a => match a with
  | ⟨0, _⟩ => ⟨(i 0).val, (i 0).isLt⟩
  | ⟨1, _⟩ => ⟨(i 1).val, h⟩
abbrev inEW (i : Cert.ReferenceIdeal.S50000x128.Idx) (h : 112 ≤ (i 1).val) : Cert.ReferenceIdeal.S50000x16.Idx := fun a => match a with
  | ⟨0, _⟩ => ⟨(i 0).val, (i 0).isLt⟩
  | ⟨1, _⟩ => ⟨(i 1).val - 112, by have h1 : (i 1).val < 128 := (i 1).isLt; show (i 1).val - 112 < 16; omega⟩
abbrev biasIdxW (z : Cert.ReferenceIdeal.S50000x112.Idx) : Cert.ReferenceIdeal.S1x112.Idx := fun a => match a with
  | ⟨0, _⟩ => ⟨0, Nat.one_pos⟩
  | ⟨1, _⟩ => ⟨(z 1).val, (z 1).isLt⟩

theorem whole_left (feat : Cert.Gcn.FArr Cert.ReferenceIdeal.S50000x640) (w : Cert.Gcn.FArr Cert.ReferenceIdeal.S640x112)
    (bias : Cert.Gcn.FArr Cert.ReferenceIdeal.S1x112) (emb : Cert.Gcn.FArr Cert.ReferenceIdeal.S50000x16)
    (i : Cert.ReferenceIdeal.S50000x128.Idx) (h : (i 1).val < 112) :
    Cert.Gcn.projConcat feat w bias emb i
      = (∑ k : Fin 640, feat (lidxRP (inPW i h) k) * w (ridxRP (inPW i h) k)) + bias (biasIdxW (inPW i h)) := by
  unfold Cert.Gcn.projConcat
  rw [concatenate_pair_apply_left (1 : Fin Cert.ReferenceIdeal.S50000x128.rank) _ _ Cert.ReferenceIdeal.Gen.concatenates_S50000x112_S50000x16_S50000x128_d1 i rfl (inPW i h)
    (fun b => match b with | ⟨0, _⟩ => rfl | ⟨1, _⟩ => rfl)]
  show Host.dotGeneral Cert.ReferenceIdeal.dot_S50000x640_S640x112_S50000x112_1_0_0_1_n_n none feat w (inPW i h)
      + broadcastInDim Cert.ReferenceIdeal.S50000x112 ![0, 1] Cert.ReferenceIdeal.Gen.bcast_S1x112_S50000x112_0_1 bias (inPW i h) = _
  rw [broadcastInDim_apply _ Cert.ReferenceIdeal.Gen.bcast_S1x112_S50000x112_0_1 bias (inPW i h) (biasIdxW (inPW i h)) (fun a => match a with
      | ⟨0, _⟩ => by show 0 = if (1 : Nat) = 1 then 0 else (i 0).val; rw [if_pos rfl]
      | ⟨1, _⟩ => by show (i 1).val = if (112 : Nat) = 1 then 0 else (i 1).val; rw [if_neg (by decide)])]
  refine congrArg (· + bias (biasIdxW (inPW i h))) ?_
  simp only [Host.dotGeneral]
  rw [Ideal.dotGeneral_apply]
  exact sumRP _ _ _

theorem whole_right (feat : Cert.Gcn.FArr Cert.ReferenceIdeal.S50000x640) (w : Cert.Gcn.FArr Cert.ReferenceIdeal.S640x112)
    (bias : Cert.Gcn.FArr Cert.ReferenceIdeal.S1x112) (emb : Cert.Gcn.FArr Cert.ReferenceIdeal.S50000x16)
    (i : Cert.ReferenceIdeal.S50000x128.Idx) (h : 112 ≤ (i 1).val) :
    Cert.Gcn.projConcat feat w bias emb i = emb (inEW i h) := by
  unfold Cert.Gcn.projConcat
  exact concatenate_pair_apply_right (1 : Fin Cert.ReferenceIdeal.S50000x128.rank) _ _ Cert.ReferenceIdeal.Gen.concatenates_S50000x112_S50000x16_S50000x128_d1 i rfl rfl (inEW i h)
    (fun b hb => match b, hb with | ⟨0, _⟩, _ => rfl | ⟨1, _⟩, hb => absurd rfl hb)
    (by show (i 1).val - 112 + 112 = (i 1).val; omega)

/-! ## From blocks to the array -/

variable (V : (c : Dev nD) → (b : Ref sig .tc) → Buf (Elt Ideal) ((c : Thread nD τ).loc b))

set_option maxHeartbeats 4000000 in
/-- What the body's two stores leave in the output's staging buffer: the two pieces over the loaded blocks. -/
theorem out_eq (c : Dev nD) (i : grid0.Coords) (arg1 : Memref sig .tc .vmem S2000x640 .f32) (harg1 : arg1.IsWhole) (arg2 : Memref sig .tc .vmem S640x112 .f32) (harg2 : arg2.IsWhole) (arg3 : Memref sig .tc .vmem S1x112 .f32) (harg3 : arg3.IsWhole) (arg4 : Memref sig .tc .vmem S2000x16 .f32) (harg4 : arg4.IsWhole) (arg5 : Memref sig .tc .vmem S2000x128 .f32) (harg5 : arg5.IsWhole)
    (x0 : Vec Ideal S2000x640 .f32) (x1 : Vec Ideal S640x112 .f32) (x2 : Vec Ideal S1x112 .f32) (x3 : Vec Ideal S2000x16 .f32) :
    out0_A_4 c i arg1 harg1 arg2 harg2 arg3 harg3 arg4 harg4 arg5 harg5 x0 x1 x2 x3
      = View.canon (Val := Elt Ideal) (e := .f32) [⟨rectE, k0_pay2 x3⟩, ⟨rectP, k0_pay1 x0 x1 x2⟩] := by
  unfold out0_A_4
  rw [View.read_writes_eq_canon _ _ _ (cover0_A_4 c i arg1 harg1 arg2 harg2 arg3 harg3 arg4 harg4 arg5 harg5 x0 x1 x2 x3)]
  unfold kernelRun0_A
  dsimp only
  try sl_unfold_words
  simp only [View.readAt_eq_ld, harg1.read_unread, harg2.read_unread, harg3.read_unread, harg4.read_unread,
    View.ld_unit_zero (S := S2000x640) zero_offsets, View.ld_unit_zero (S := S640x112) zero_offsets,
    View.ld_unit_zero (S := S1x112) zero_offsets, View.ld_unit_zero (S := S2000x16) zero_offsets]

/-- Where the windows' blocks sit, decided once over the 25 grid points. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

set_option maxHeartbeats 4000000 in
/-- What grid point `t` writes back is block `t` of the joined array of the arrays the launch found. -/
theorem flushed_eq (c : Dev nD) (t : Fin cfg0.N) :
    (dat0 V c).flushed 4 t = ((cfg0.win 4).blk t).view.read (Elt Ideal)
      (Cert.Gcn.projConcat (V c main_arg0) (V c main_arg3) (V c main_v7) (V c main_v6)) := by
  show (cfg0.win 4).cut (grid0.coords t) ((dat0 V c).after 4 t) = _
  rw [after0_4]
  unfold outsAt0
  rw [out_eq]
  obtain ⟨e00, e01, e10, e11, e20, e21, e30, e31, e40, e41⟩ := block_index t
  funext j
  show View.canon (Val := Elt Ideal) (e := .f32) [⟨rectE, k0_pay2 (iblk0 V c 3 t)⟩, ⟨rectP, k0_pay1 (iblk0 V c 0 t) (iblk0 V c 1 t) (iblk0 V c 2 t)⟩] j
    = Cert.Gcn.projConcat (V c main_arg0) (V c main_arg3) (V c main_v7) (V c main_v6) (((cfg0.win 4).blk t).view.emb j)
  have hcol : ((((cfg0.win 4).blk t).view.emb j) 1).val = (j 1).val := by
    show win0_4.index t (1 : Fin 2) * 128 + 1 * (j 1).val = (j 1).val; omega
  by_cases h : (j 1).val < 112
  · rw [pieces_left _ _ j h, projection_apply, whole_left _ _ _ _ _ (by rw [hcol]; exact h)]
    have hb : iblk0 V c 2 t (biasIdx (inP j h)) = V c main_v7 (biasIdxW (inPW (((cfg0.win 4).blk t).view.emb j) (by rw [hcol]; exact h))) := by
      show V c main_v7 (((cfg0.win 2).blk t).view.emb (biasIdx (inP j h))) = _
      refine congrArg _ (funext fun a => Fin.ext ?_)
      match a with
      | ⟨0, _⟩ => show win0_2.index t (0 : Fin 2) * 1 + 1 * 0 = 0; omega
      | ⟨1, _⟩ => show win0_2.index t (1 : Fin 2) * 112 + 1 * (j 1).val = win0_4.index t (1 : Fin 2) * 128 + 1 * (j 1).val; omega
    rw [hb]
    refine congrArg (· + _) (Finset.sum_congr rfl fun k _ => ?_)
    have h0 : iblk0 V c 0 t (lidxKP (inP j h) k) = V c main_arg0 (lidxRP (inPW (((cfg0.win 4).blk t).view.emb j) (by rw [hcol]; exact h)) k) := by
      show V c main_arg0 (((cfg0.win 0).blk t).view.emb (lidxKP (inP j h) k)) = _
      refine congrArg _ (funext fun a => Fin.ext ?_)
      match a with
      | ⟨0, _⟩ => show win0_0.index t (0 : Fin 2) * 2000 + 1 * (j 0).val = win0_4.index t (0 : Fin 2) * 2000 + 1 * (j 0).val; omega
      | ⟨1, _⟩ => show win0_0.index t (1 : Fin 2) * 640 + 1 * k.val = k.val; omega
    have h1 : iblk0 V c 1 t (ridxKP (inP j h) k) = V c main_arg3 (ridxRP (inPW (((cfg0.win 4).blk t).view.emb j) (by rw [hcol]; exact h)) k) := by
      show V c main_arg3 (((cfg0.win 1).blk t).view.emb (ridxKP (inP j h) k)) = _
      refine congrArg _ (funext fun a => Fin.ext ?_)
      match a with
      | ⟨0, _⟩ => show win0_1.index t (0 : Fin 2) * 640 + 1 * k.val = k.val; omega
      | ⟨1, _⟩ => show win0_1.index t (1 : Fin 2) * 112 + 1 * (j 1).val = win0_4.index t (1 : Fin 2) * 128 + 1 * (j 1).val; omega
    rw [h0, h1]
  · have h' : 112 ≤ (j 1).val := Nat.le_of_not_lt h
    rw [pieces_right _ _ j h', embedding_eq, whole_right _ _ _ _ _ (by rw [hcol]; exact h')]
    show V c main_v6 (((cfg0.win 3).blk t).view.emb (inE j h')) = _
    refine congrArg _ (funext fun a => Fin.ext ?_)
    match a with
    | ⟨0, _⟩ => show win0_3.index t (0 : Fin 2) * 2000 + 1 * (j 0).val = win0_4.index t (0 : Fin 2) * 2000 + 1 * (j 0).val; omega
    | ⟨1, _⟩ => show win0_3.index t (1 : Fin 2) * 16 + 1 * ((j 1).val - 112) = win0_4.index t (1 : Fin 2) * 128 + 1 * (j 1).val - 112; omega

/-- An index of the output array lies in point `t`'s block iff each coordinate lies in the block's range on its axis. -/
theorem mem_block (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v8).slice (win0_4.rect t)).set ↔ _
  rw [View.set_slice_whole, Rect.mem_set_unit]
  exact Iff.rfl

/-- Row `r` of the output lies in the block of grid point `r / 2000`: the 25 blocks cover the array. -/
theorem covered (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 25 := N_0
  have ht : (i 0).val / 2000 < cfg0.N := by rw [hN]; omega
  refine ⟨⟨(i 0).val / 2000, ht⟩, flush0_4 _, ?_⟩
  rw [mem_block]
  obtain ⟨e00, e01, e10, e11, e20, e21, e30, e31, e40, e41⟩ := block_index ⟨(i 0).val / 2000, ht⟩
  have e40' : win0_4.index ⟨(i 0).val / 2000, ht⟩ (0 : Fin 2) = (i 0).val / 2000 := e40
  intro a
  match a with
  | ⟨0, _⟩ =>
    show win0_4.index ⟨(i 0).val / 2000, ht⟩ (0 : Fin 2) * 2000 ≤ (i 0).val ∧ (i 0).val < win0_4.index ⟨(i 0).val / 2000, ht⟩ (0 : Fin 2) * 2000 + 2000
    rw [e40']; omega
  | ⟨1, _⟩ =>
    show win0_4.index ⟨(i 0).val / 2000, ht⟩ (1 : Fin 2) * 128 ≤ (i 1).val ∧ (i 1).val < win0_4.index ⟨(i 0).val / 2000, ht⟩ (1 : Fin 2) * 128 + 128
    rw [e41]; omega

/-- After the launch the output array is the joined array of the four arrays the launch found. -/
theorem array_eq (c : Dev nD) :
    (dat0 V c).arrAt 4 cfg0.N = Cert.Gcn.projConcat (V c main_arg0) (V c main_arg3) (V c main_v7) (V c main_v6) :=
  (dat0 V c).arrAt_eq_of_cover 4 _ (fun t _ => flushed_eq V c t) covered

end Cert.KernelIdeal.Hand.Features0

end
-- ==== Proof.Product1.lean ====
/-
  A graph-convolution layer's dense product `x · W`, as the kernel computes it: the 50000 rows are cut into 25 blocks of 2000;
  grid point `t` loads block `t` of `x` and the whole of `W`, forms the 128-term products on the matrix unit into a zero
  accumulator, and writes the result back as block `t` of the output.  Entry (2000·t + r, j) of the output is therefore
  `∑ₖ x(2000·t + r, k) · W(k, j)`, which is the host's whole product at that entry; the 25 blocks cover every row, so the
  output array after the launch IS the whole product of the two arrays the launch found.
-/
import proofs.«161596_j49563922595873_1_alg».proof.Proof.Gen.KernelIdeal.Frame
import proofs.«161596_j49563922595873_1_alg».proof.Proof.Network
import proofs.«161596_j49563922595873_1_alg».proof.Proof.DotSums
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand.Product1

open Cert.KernelIdeal Cert.KernelIdeal.Gen Cert.Gcn.Dots
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block product at an entry: the 128-term sum of the loaded blocks (a change of float format is the identity on
    the extended reals, and the accumulator starts at zero). -/
theorem payload_apply (x0 : Vec Ideal S2000x128 .f32) (x1 : Vec Ideal S128x128 .f32) (y : S2000x128.Idx) :
    k1_pay1 x0 x1 y = ∑ k : Fin 128, x0 (lidxKW y k) * x1 (ridxKW y k) := by
  unfold k1_pay1
  rw [shapeCast_self, shapeCast_self]
  exact (Ideal.matmul_constant_zero_apply dot_S2000x128_S128x128_S2000x128_1_0_0_1_n_n none _ _ y).trans (sumKW _ _ y)

/-- The host's whole product at an entry: the same 128-term sum. -/
theorem whole_apply (x : Cert.Gcn.FArr Cert.ReferenceIdeal.S50000x128) (w : Cert.Gcn.FArr Cert.ReferenceIdeal.S128x128)
    (i : Cert.ReferenceIdeal.S50000x128.Idx) :
    Cert.Gcn.dot128 x w i = ∑ k : Fin 128, x (lidxRW i k) * w (ridxRW i k) := by
  unfold Cert.Gcn.dot128
  simp only [Host.dotGeneral]
  rw [Ideal.dotGeneral_apply]
  exact sumRW _ _ i

/-- Where the windows' blocks sit, decided once over the 25 grid points: the row-blocked windows at block row `t`, the
    weight matrix's one block at the origin. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

set_option maxHeartbeats 1600000 in
/-- What grid point `t` writes back is block `t` of the whole product of the arrays the launch found. -/
theorem flushed_eq (c : Dev nD) (t : Fin cfg1.N) :
    (dat1 V c).flushed 2 t = ((cfg1.win 2).blk t).view.read (Elt Ideal)
      (Cert.Gcn.dot128 (V c main_v8) (V c main_v22)) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S128x128) zero_offsets]
  obtain ⟨e0, e1, e2, e3, e4, e5⟩ := block_index t
  funext j
  show k1_pay1 (iblk1 V c 0 t) (iblk1 V c 1 t) j = Cert.Gcn.dot128 (V c main_v8) (V c main_v22) (((cfg1.win 2).blk t).view.emb j)
  refine (payload_apply _ _ j).trans ((whole_apply _ _ _).trans ?_).symm
  refine Finset.sum_congr rfl fun k _ => ?_
  have h0 : iblk1 V c 0 t (lidxKW j k) = V c main_v8 (lidxRW (((cfg1.win 2).blk t).view.emb j) k) := by
    show V c main_v8 (((cfg1.win 0).blk t).view.emb (lidxKW j k)) = _
    refine congrArg _ (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * k.val = k.val; omega
  have h1 : iblk1 V c 1 t (ridxKW j k) = V c main_v22 (ridxRW (((cfg1.win 2).blk t).view.emb j) k) := by
    show V c main_v22 (((cfg1.win 1).blk t).view.emb (ridxKW j k)) = _
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  rw [h0, h1]

/-- An index of the output array lies in point `t`'s block iff each coordinate lies in the block's range on its axis. -/
theorem mem_block (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v25).slice (win1_2.rect t)).set ↔ _
  rw [View.set_slice_whole, Rect.mem_set_unit]
  exact Iff.rfl

/-- Row `r` of the output lies in the block of grid point `r / 2000`: the 25 blocks cover the array. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  have ht : (i 0).val / 2000 < cfg1.N := by rw [hN]; omega
  refine ⟨⟨(i 0).val / 2000, ht⟩, flush1_2 _, ?_⟩
  rw [mem_block]
  obtain ⟨e0, e1, e2, e3, e4, e5⟩ := block_index ⟨(i 0).val / 2000, ht⟩
  have e4' : win1_2.index ⟨(i 0).val / 2000, ht⟩ (0 : Fin 2) = (i 0).val / 2000 := e4
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e4']; omega
  | ⟨1, _⟩ =>
    show win1_2.index ⟨(i 0).val / 2000, ht⟩ (1 : Fin 2) * 128 ≤ (i 1).val ∧ (i 1).val < win1_2.index ⟨(i 0).val / 2000, ht⟩ (1 : Fin 2) * 128 + 128
    rw [e5]; omega

/-- After the launch the output array is the whole product of the two arrays the launch found. -/
theorem array_eq (c : Dev nD) :
    (dat1 V c).arrAt 2 cfg1.N = Cert.Gcn.dot128 (V c main_v8) (V c main_v22) :=
  (dat1 V c).arrAt_eq_of_cover 2 _ (fun t _ => flushed_eq V c t) covered

end Cert.KernelIdeal.Hand.Product1

end
-- ==== Proof.Residual2.lean ====
/-
  A layer's pointwise tail, as the kernel computes it: `x + max((agg + xw ∘ sn) + b, 0)` on blocks of 2000 rows, the
  column `sn` (one entry per row) spread along the 128 columns and the row `b` (one entry per column) spread along the rows.
  Entry (2000·t + r, j) of the output depends on the same entry of `x`, `agg` and `xw`, on `sn(2000·t + r, 0)` and on
  `b(0, j)`; that is the host's expression at that entry, and the 25 blocks cover the array.
-/
import proofs.«161596_j49563922595873_1_alg».proof.Proof.Gen.KernelIdeal.Frame
import proofs.«161596_j49563922595873_1_alg».proof.Proof.Network
import Idealize.ShloMosaic.Lib.Pipeline.Value
import Idealize.ShloMosaic.Lib.ValueIdx
import Idealize.ShloMosaic.PureOps.Ideal.Laws

set_option maxRecDepth 16384

noncomputable section

namespace Cert.KernelIdeal.Hand.Residual2

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Row `y 0` of a one-column block, and column `y 1` of a one-row block. -/
abbrev colIdx (y : S2000x128.Idx) : S2000x1.Idx := fun a => match a with
  | ⟨0, _⟩ => ⟨(y 0).val, (y 0).isLt⟩
  | ⟨1, _⟩ => ⟨0, Nat.one_pos⟩
abbrev rowIdx (y : S2000x128.Idx) : S1x128.Idx := fun a => match a with
  | ⟨0, _⟩ => ⟨0, Nat.one_pos⟩
  | ⟨1, _⟩ => ⟨(y 1).val, (y 1).isLt⟩
/-- The same for the whole arrays. -/
abbrev colIdxW (i : Cert.ReferenceIdeal.S50000x128.Idx) : Cert.ReferenceIdeal.S50000x1.Idx := fun a => match a with
  | ⟨0, _⟩ => ⟨(i 0).val, (i 0).isLt⟩
  | ⟨1, _⟩ => ⟨0, Nat.one_pos⟩
abbrev rowIdxW (i : Cert.ReferenceIdeal.S50000x128.Idx) : Cert.ReferenceIdeal.S1x128.Idx := fun a => match a with
  | ⟨0, _⟩ => ⟨0, Nat.one_pos⟩
  | ⟨1, _⟩ => ⟨(i 1).val, (i 1).isLt⟩

/-- The body's result at an entry of the block. -/
theorem payload_apply (agg xw : Vec Ideal S2000x128 .f32) (sn : Vec Ideal S2000x1 .f32) (b : Vec Ideal S1x128 .f32)
    (x : Vec Ideal S2000x128 .f32) (y : S2000x128.Idx) :
    k2_pay1 agg xw sn b x y
      = x y + max ((agg y + xw y * sn (colIdx y)) + b (rowIdx y)) (Ideal.ofBits .f32 0x00000000#32) := by
  unfold k2_pay1
  simp only [shapeCast_self]
  show x y + max ((agg y + xw y * (broadcastTo S2000x128 sn broadcasts_S2000x1_S2000x128 y))
      + (broadcastTo S2000x128 b broadcasts_S1x128_S2000x128 y)) (Ideal.ofBits .f32 0x00000000#32) = _
  rw [broadcastTo_apply sn broadcasts_S2000x1_S2000x128 y (colIdx y) (fun a => match a with
      | ⟨0, _⟩ => by show (y 0).val = if (2000 : Nat) = 1 then 0 else (y 0).val; rw [if_neg (by decide)]
      | ⟨1, _⟩ => by show 0 = if (1 : Nat) = 1 then 0 else (y 1).val; rw [if_pos rfl]),
    broadcastTo_apply b broadcasts_S1x128_S2000x128 y (rowIdx y) (fun a => match a with
      | ⟨0, _⟩ => by show 0 = if (1 : Nat) = 1 then 0 else (y 0).val; rw [if_pos rfl]
      | ⟨1, _⟩ => by show (y 1).val = if (128 : Nat) = 1 then 0 else (y 1).val; rw [if_neg (by decide)])]

/-- The host's expression at an entry of the whole array. -/
theorem whole_apply (x agg xw : Cert.Gcn.FArr Cert.ReferenceIdeal.S50000x128) (sn : Cert.Gcn.FArr Cert.ReferenceIdeal.S50000x1)
    (b : Cert.Gcn.FArr Cert.ReferenceIdeal.S1x128) (i : Cert.ReferenceIdeal.S50000x128.Idx) :
    Cert.Gcn.residual x agg xw sn b i
      = x i + max ((agg i + xw i * sn (colIdxW i)) + b (rowIdxW i)) (Ideal.ofBits .f32 0x00000000#32) := by
  unfold Cert.Gcn.residual
  show x i + max ((agg i + xw i * (broadcastInDim Cert.ReferenceIdeal.S50000x128 ![0, 1] Cert.ReferenceIdeal.Gen.bcast_S50000x1_S50000x128_0_1 sn i))
      + (broadcastInDim Cert.ReferenceIdeal.S50000x128 ![0, 1] Cert.ReferenceIdeal.Gen.bcast_S1x128_S50000x128_0_1 b i)) (Ideal.ofBits .f32 0x00000000#32) = _
  rw [broadcastInDim_apply _ Cert.ReferenceIdeal.Gen.bcast_S50000x1_S50000x128_0_1 sn i (colIdxW i) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl]),
    broadcastInDim_apply _ Cert.ReferenceIdeal.Gen.bcast_S1x128_S50000x128_0_1 b i (rowIdxW i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])]

/-- Where the windows' blocks sit, decided once over the 25 grid points: the row-blocked windows at block row `t`, the
    bias row's one block at the origin. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

set_option maxHeartbeats 1600000 in
/-- What grid point `t` writes back is block `t` of the host's expression of the arrays the launch found. -/
theorem flushed_eq (c : Dev nD) (t : Fin cfg2.N) :
    (dat2 V c).flushed 5 t = ((cfg2.win 5).blk t).view.read (Elt Ideal)
      (Cert.Gcn.residual (V c main_v8) (V c main_v53) (V c main_v25) (V c main_v54) (V c main_v55)) := by
  show (cfg2.win 5).cut (grid2.coords t) ((dat2 V c).after 5 t) = _
  rw [after2_5]
  unfold out2_5
  rw [View.canon_unit_zero zero_offsets]
  simp only [View.ld_unit_zero (S := S2000x128) zero_offsets, View.ld_unit_zero (S := S2000x1) zero_offsets, View.ld_unit_zero (S := S1x128) zero_offsets]
  obtain ⟨e00, e01, e10, e11, e20, e21, e30, e31, e40, e41, e50, e51⟩ := block_index t
  funext j
  show k2_pay1 (iblk2 V c 1 t) (iblk2 V c 2 t) (iblk2 V c 3 t) (iblk2 V c 4 t) (iblk2 V c 0 t) j
    = Cert.Gcn.residual (V c main_v8) (V c main_v53) (V c main_v25) (V c main_v54) (V c main_v55) (((cfg2.win 5).blk t).view.emb j)
  refine (payload_apply _ _ _ _ _ j).trans ((whole_apply _ _ _ _ _ _).trans ?_).symm
  have hx : iblk2 V c 0 t j = V c main_v8 (((cfg2.win 5).blk t).view.emb j) := by
    show V c main_v8 (((cfg2.win 0).blk t).view.emb j) = _
    refine congrArg _ (funext fun a => Fin.ext ?_)
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 128 + 1 * (j 1).val = win2_5.index t (1 : Fin 2) * 128 + 1 * (j 1).val; omega
  have hagg : iblk2 V c 1 t j = V c main_v53 (((cfg2.win 5).blk t).view.emb j) := by
    show V c main_v53 (((cfg2.win 1).blk t).view.emb j) = _
    refine congrArg _ (funext fun a => Fin.ext ?_)
    match a with
    | ⟨0, _⟩ => show win2_1.index t (0 : Fin 2) * 2000 + 1 * (j 0).val = win2_5.index t (0 : Fin 2) * 2000 + 1 * (j 0).val; omega
    | ⟨1, _⟩ => show win2_1.index t (1 : Fin 2) * 128 + 1 * (j 1).val = win2_5.index t (1 : Fin 2) * 128 + 1 * (j 1).val; omega
  have hxw : iblk2 V c 2 t j = V c main_v25 (((cfg2.win 5).blk t).view.emb j) := by
    show V c main_v25 (((cfg2.win 2).blk t).view.emb j) = _
    refine congrArg _ (funext fun a => Fin.ext ?_)
    match a with
    | ⟨0, _⟩ => show win2_2.index t (0 : Fin 2) * 2000 + 1 * (j 0).val = win2_5.index t (0 : Fin 2) * 2000 + 1 * (j 0).val; omega
    | ⟨1, _⟩ => show win2_2.index t (1 : Fin 2) * 128 + 1 * (j 1).val = win2_5.index t (1 : Fin 2) * 128 + 1 * (j 1).val; omega
  have hsn : iblk2 V c 3 t (colIdx j) = V c main_v54 (colIdxW (((cfg2.win 5).blk t).view.emb j)) := by
    show V c main_v54 (((cfg2.win 3).blk t).view.emb (colIdx j)) = _
    refine congrArg _ (funext fun a => Fin.ext ?_)
    match a with
    | ⟨0, _⟩ => show win2_3.index t (0 : Fin 2) * 2000 + 1 * (j 0).val = win2_5.index t (0 : Fin 2) * 2000 + 1 * (j 0).val; omega
    | ⟨1, _⟩ => show win2_3.index t (1 : Fin 2) * 1 + 1 * 0 = 0; omega
  have hb : iblk2 V c 4 t (rowIdx j) = V c main_v55 (rowIdxW (((cfg2.win 5).blk t).view.emb j)) := by
    show V c main_v55 (((cfg2.win 4).blk t).view.emb (rowIdx j)) = _
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * (j 1).val = win2_5.index t (1 : Fin 2) * 128 + 1 * (j 1).val; omega
  rw [hx, hagg, hxw, hsn, hb]

/-- An index of the output array lies in point `t`'s block iff each coordinate lies in the block's range on its axis. -/
theorem mem_block (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v56).slice (win2_5.rect t)).set ↔ _
  rw [View.set_slice_whole, Rect.mem_set_unit]
  exact Iff.rfl

/-- Row `r` of the output lies in the block of grid point `r / 2000`: the 25 blocks cover the array. -/
theorem covered (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  have ht : (i 0).val / 2000 < cfg2.N := by rw [hN]; omega
  refine ⟨⟨(i 0).val / 2000, ht⟩, flush2_5 _, ?_⟩
  rw [mem_block]
  obtain ⟨e00, e01, e10, e11, e20, e21, e30, e31, e40, e41, e50, e51⟩ := block_index ⟨(i 0).val / 2000, ht⟩
  have e50' : win2_5.index ⟨(i 0).val / 2000, ht⟩ (0 : Fin 2) = (i 0).val / 2000 := e50
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [e50']; omega
  | ⟨1, _⟩ =>
    show win2_5.index ⟨(i 0).val / 2000, ht⟩ (1 : Fin 2) * 128 ≤ (i 1).val ∧ (i 1).val < win2_5.index ⟨(i 0).val / 2000, ht⟩ (1 : Fin 2) * 128 + 128
    rw [e51]; omega

/-- After the launch the output array is the host's expression of the five arrays the launch found. -/
theorem array_eq (c : Dev nD) :
    (dat2 V c).arrAt 5 cfg2.N
      = Cert.Gcn.residual (V c main_v8) (V c main_v53) (V c main_v25) (V c main_v54) (V c main_v55) :=
  (dat2 V c).arrAt_eq_of_cover 5 _ (fun t _ => flushed_eq V c t) covered

end Cert.KernelIdeal.Hand.Residual2

end
-- ==== Proof.Product3.lean ====
/-
  A graph-convolution layer's dense product `x · W`, as the kernel computes it: the 50000 rows are cut into 25 blocks of 2000;
  grid point `t` loads block `t` of `x` and the whole of `W`, forms the 128-term products on the matrix unit into a zero
  accumulator, and writes the result back as block `t` of the output.  Entry (2000·t + r, j) of the output is therefore
  `∑ₖ x(2000·t + r, k) · W(k, j)`, which is the host's whole product at that entry; the 25 blocks cover every row, so the
  output array after the launch IS the whole product of the two arrays the launch found.
-/
import proofs.«161596_j49563922595873_1_alg».proof.Proof.Gen.KernelIdeal.Frame
import proofs.«161596_j49563922595873_1_alg».proof.Proof.Network
import proofs.«161596_j49563922595873_1_alg».proof.Proof.DotSums
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand.Product3

open Cert.KernelIdeal Cert.KernelIdeal.Gen Cert.Gcn.Dots
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block product at an entry: the 128-term sum of the loaded blocks (a change of float format is the identity on
    the extended reals, and the accumulator starts at zero). -/
theorem payload_apply (x0 : Vec Ideal S2000x128 .f32) (x1 : Vec Ideal S128x128 .f32) (y : S2000x128.Idx) :
    k3_pay1 x0 x1 y = ∑ k : Fin 128, x0 (lidxKW y k) * x1 (ridxKW y k) := by
  unfold k3_pay1
  rw [shapeCast_self, shapeCast_self]
  exact (Ideal.matmul_constant_zero_apply dot_S2000x128_S128x128_S2000x128_1_0_0_1_n_n none _ _ y).trans (sumKW _ _ y)

/-- The host's whole product at an entry: the same 128-term sum. -/
theorem whole_apply (x : Cert.Gcn.FArr Cert.ReferenceIdeal.S50000x128) (w : Cert.Gcn.FArr Cert.ReferenceIdeal.S128x128)
    (i : Cert.ReferenceIdeal.S50000x128.Idx) :
    Cert.Gcn.dot128 x w i = ∑ k : Fin 128, x (lidxRW i k) * w (ridxRW i k) := by
  unfold Cert.Gcn.dot128
  simp only [Host.dotGeneral]
  rw [Ideal.dotGeneral_apply]
  exact sumRW _ _ i

/-- Where the windows' blocks sit, decided once over the 25 grid points: the row-blocked windows at block row `t`, the
    weight matrix's one block at the origin. -/
theorem block_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

set_option maxHeartbeats 1600000 in
/-- What grid point `t` writes back is block `t` of the whole product of the arrays the launch found. -/
theorem flushed_eq (c : Dev nD) (t : Fin cfg3.N) :
    (dat3 V c).flushed 2 t = ((cfg3.win 2).blk t).view.read (Elt Ideal)
      (Cert.Gcn.dot128 (V c main_v56) (V c main_v58)) := by
  show (cfg3.win 2).cut (grid3.coords t) ((dat3 V c).after 2 t) = _
  rw [after3_2]
  unfold out3_2
  rw [View.canon_unit_zero zero_offsets]
  simp only [View.ld_unit_zero (S := S2000x128) zero_offsets, View.ld_unit_zero (S := S128x128) zero_offsets]
  obtain ⟨e0, e1, e2, e3, e4, e5⟩ := block_index t
  funext j
  show k3_pay1 (iblk3 V c 0 t) (iblk3 V c 1 t) j = Cert.Gcn.dot128 (V c main_v56) (V c main_v58) (((cfg3.win 2).blk t).view.emb j)
  refine (payload_apply _ _ j).trans ((whole_apply _ _ _).trans ?_).symm
  refine Finset.sum_congr rfl fun k _ => ?_
  have h0 : iblk3 V c 0 t (lidxKW j k) = V c main_v56 (lidxRW (((cfg3.win 2).blk t).view.emb j) k) := by
    show V c main_v56 (((cfg3.win 0).blk t).view.emb (lidxKW j k)) = _
    refine congrArg _ (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * k.val = k.val; omega
  have h1 : iblk3 V c 1 t (ridxKW j k) = V c main_v58 (ridxRW (((cfg3.win 2).blk t).view.emb j) k) := by
    show V c main_v58 (((cfg3.win 1).blk t).view.emb (ridxKW j k)) = _
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega
  rw [h0, h1]

/-- An index of the output array lies in point `t`'s block iff each coordinate lies in the block's range on its axis. -/
theorem mem_block (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v61).slice (win3_2.rect t)).set ↔ _
  rw [View.set_slice_whole, Rect.mem_set_unit]
  exact Iff.rfl

/-- Row `r` of the output lies in the block of grid point `r / 2000`: the 25 blocks cover the array. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 25 := N_3
  have ht : (i 0).val / 2000 < cfg3.N := by rw [hN]; omega
  refine ⟨⟨(i 0).val / 2000, ht⟩, flush3_2 _, ?_⟩
  rw [mem_block]
  obtain ⟨e0, e1, e2, e3, e4, e5⟩ := block_index ⟨(i 0).val / 2000, ht⟩
  have e4' : win3_2.index ⟨(i 0).val / 2000, ht⟩ (0 : Fin 2) = (i 0).val / 2000 := e4
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [e4']; omega
  | ⟨1, _⟩ =>
    show win3_2.index ⟨(i 0).val / 2000, ht⟩ (1 : Fin 2) * 128 ≤ (i 1).val ∧ (i 1).val < win3_2.index ⟨(i 0).val / 2000, ht⟩ (1 : Fin 2) * 128 + 128
    rw [e5]; omega

/-- After the launch the output array is the whole product of the two arrays the launch found. -/
theorem array_eq (c : Dev nD) :
    (dat3 V c).arrAt 2 cfg3.N = Cert.Gcn.dot128 (V c main_v56) (V c main_v58) :=
  (dat3 V c).arrAt_eq_of_cover 2 _ (fun t _ => flushed_eq V c t) covered

end Cert.KernelIdeal.Hand.Product3

end
-- ==== Proof.Residual4.lean ====
/-
  A layer's pointwise tail, as the kernel computes it: `x + max((agg + xw ∘ sn) + b, 0)` on blocks of 2000 rows, the
  column `sn` (one entry per row) spread along the 128 columns and the row `b` (one entry per column) spread along the rows.
  Entry (2000·t + r, j) of the output depends on the same entry of `x`, `agg` and `xw`, on `sn(2000·t + r, 0)` and on
  `b(0, j)`; that is the host's expression at that entry, and the 25 blocks cover the array.
-/
import proofs.«161596_j49563922595873_1_alg».proof.Proof.Gen.KernelIdeal.Frame
import proofs.«161596_j49563922595873_1_alg».proof.Proof.Network
import Idealize.ShloMosaic.Lib.Pipeline.Value
import Idealize.ShloMosaic.Lib.ValueIdx
import Idealize.ShloMosaic.PureOps.Ideal.Laws

set_option maxRecDepth 16384

noncomputable section

namespace Cert.KernelIdeal.Hand.Residual4

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Row `y 0` of a one-column block, and column `y 1` of a one-row block. -/
abbrev colIdx (y : S2000x128.Idx) : S2000x1.Idx := fun a => match a with
  | ⟨0, _⟩ => ⟨(y 0).val, (y 0).isLt⟩
  | ⟨1, _⟩ => ⟨0, Nat.one_pos⟩
abbrev rowIdx (y : S2000x128.Idx) : S1x128.Idx := fun a => match a with
  | ⟨0, _⟩ => ⟨0, Nat.one_pos⟩
  | ⟨1, _⟩ => ⟨(y 1).val, (y 1).isLt⟩
/-- The same for the whole arrays. -/
abbrev colIdxW (i : Cert.ReferenceIdeal.S50000x128.Idx) : Cert.ReferenceIdeal.S50000x1.Idx := fun a => match a with
  | ⟨0, _⟩ => ⟨(i 0).val, (i 0).isLt⟩
  | ⟨1, _⟩ => ⟨0, Nat.one_pos⟩
abbrev rowIdxW (i : Cert.ReferenceIdeal.S50000x128.Idx) : Cert.ReferenceIdeal.S1x128.Idx := fun a => match a with
  | ⟨0, _⟩ => ⟨0, Nat.one_pos⟩
  | ⟨1, _⟩ => ⟨(i 1).val, (i 1).isLt⟩

/-- The body's result at an entry of the block. -/
theorem payload_apply (agg xw : Vec Ideal S2000x128 .f32) (sn : Vec Ideal S2000x1 .f32) (b : Vec Ideal S1x128 .f32)
    (x : Vec Ideal S2000x128 .f32) (y : S2000x128.Idx) :
    k4_pay1 agg xw sn b x y
      = x y + max ((agg y + xw y * sn (colIdx y)) + b (rowIdx y)) (Ideal.ofBits .f32 0x00000000#32) := by
  unfold k4_pay1
  simp only [shapeCast_self]
  show x y + max ((agg y + xw y * (broadcastTo S2000x128 sn broadcasts_S2000x1_S2000x128 y))
      + (broadcastTo S2000x128 b broadcasts_S1x128_S2000x128 y)) (Ideal.ofBits .f32 0x00000000#32) = _
  rw [broadcastTo_apply sn broadcasts_S2000x1_S2000x128 y (colIdx y) (fun a => match a with
      | ⟨0, _⟩ => by show (y 0).val = if (2000 : Nat) = 1 then 0 else (y 0).val; rw [if_neg (by decide)]
      | ⟨1, _⟩ => by show 0 = if (1 : Nat) = 1 then 0 else (y 1).val; rw [if_pos rfl]),
    broadcastTo_apply b broadcasts_S1x128_S2000x128 y (rowIdx y) (fun a => match a with
      | ⟨0, _⟩ => by show 0 = if (1 : Nat) = 1 then 0 else (y 0).val; rw [if_pos rfl]
      | ⟨1, _⟩ => by show (y 1).val = if (128 : Nat) = 1 then 0 else (y 1).val; rw [if_neg (by decide)])]

/-- The host's expression at an entry of the whole array. -/
theorem whole_apply (x agg xw : Cert.Gcn.FArr Cert.ReferenceIdeal.S50000x128) (sn : Cert.Gcn.FArr Cert.ReferenceIdeal.S50000x1)
    (b : Cert.Gcn.FArr Cert.ReferenceIdeal.S1x128) (i : Cert.ReferenceIdeal.S50000x128.Idx) :
    Cert.Gcn.residual x agg xw sn b i
      = x i + max ((agg i + xw i * sn (colIdxW i)) + b (rowIdxW i)) (Ideal.ofBits .f32 0x00000000#32) := by
  unfold Cert.Gcn.residual
  show x i + max ((agg i + xw i * (broadcastInDim Cert.ReferenceIdeal.S50000x128 ![0, 1] Cert.ReferenceIdeal.Gen.bcast_S50000x1_S50000x128_0_1 sn i))
      + (broadcastInDim Cert.ReferenceIdeal.S50000x128 ![0, 1] Cert.ReferenceIdeal.Gen.bcast_S1x128_S50000x128_0_1 b i)) (Ideal.ofBits .f32 0x00000000#32) = _
  rw [broadcastInDim_apply _ Cert.ReferenceIdeal.Gen.bcast_S50000x1_S50000x128_0_1 sn i (colIdxW i) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl]),
    broadcastInDim_apply _ Cert.ReferenceIdeal.Gen.bcast_S1x128_S50000x128_0_1 b i (rowIdxW i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])]

/-- Where the windows' blocks sit, decided once over the 25 grid points: the row-blocked windows at block row `t`, the
    bias row's one block at the origin. -/
theorem block_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

set_option maxHeartbeats 1600000 in
/-- What grid point `t` writes back is block `t` of the host's expression of the arrays the launch found. -/
theorem flushed_eq (c : Dev nD) (t : Fin cfg4.N) :
    (dat4 V c).flushed 5 t = ((cfg4.win 5).blk t).view.read (Elt Ideal)
      (Cert.Gcn.residual (V c main_v56) (V c main_v89) (V c main_v61) (V c main_v90) (V c main_v91)) := by
  show (cfg4.win 5).cut (grid4.coords t) ((dat4 V c).after 5 t) = _
  rw [after4_5]
  unfold out4_5
  rw [View.canon_unit_zero zero_offsets]
  simp only [View.ld_unit_zero (S := S2000x128) zero_offsets, View.ld_unit_zero (S := S2000x1) zero_offsets, View.ld_unit_zero (S := S1x128) zero_offsets]
  obtain ⟨e00, e01, e10, e11, e20, e21, e30, e31, e40, e41, e50, e51⟩ := block_index t
  funext j
  show k4_pay1 (iblk4 V c 1 t) (iblk4 V c 2 t) (iblk4 V c 3 t) (iblk4 V c 4 t) (iblk4 V c 0 t) j
    = Cert.Gcn.residual (V c main_v56) (V c main_v89) (V c main_v61) (V c main_v90) (V c main_v91) (((cfg4.win 5).blk t).view.emb j)
  refine (payload_apply _ _ _ _ _ j).trans ((whole_apply _ _ _ _ _ _).trans ?_).symm
  have hx : iblk4 V c 0 t j = V c main_v56 (((cfg4.win 5).blk t).view.emb j) := by
    show V c main_v56 (((cfg4.win 0).blk t).view.emb j) = _
    refine congrArg _ (funext fun a => Fin.ext ?_)
    match a with
    | ⟨0, _⟩ => show win4_0.index t (0 : Fin 2) * 2000 + 1 * (j 0).val = win4_5.index t (0 : Fin 2) * 2000 + 1 * (j 0).val; omega
    | ⟨1, _⟩ => show win4_0.index t (1 : Fin 2) * 128 + 1 * (j 1).val = win4_5.index t (1 : Fin 2) * 128 + 1 * (j 1).val; omega
  have hagg : iblk4 V c 1 t j = V c main_v89 (((cfg4.win 5).blk t).view.emb j) := by
    show V c main_v89 (((cfg4.win 1).blk t).view.emb j) = _
    refine congrArg _ (funext fun a => Fin.ext ?_)
    match a with
    | ⟨0, _⟩ => show win4_1.index t (0 : Fin 2) * 2000 + 1 * (j 0).val = win4_5.index t (0 : Fin 2) * 2000 + 1 * (j 0).val; omega
    | ⟨1, _⟩ => show win4_1.index t (1 : Fin 2) * 128 + 1 * (j 1).val = win4_5.index t (1 : Fin 2) * 128 + 1 * (j 1).val; omega
  have hxw : iblk4 V c 2 t j = V c main_v61 (((cfg4.win 5).blk t).view.emb j) := by
    show V c main_v61 (((cfg4.win 2).blk t).view.emb j) = _
    refine congrArg _ (funext fun a => Fin.ext ?_)
    match a with
    | ⟨0, _⟩ => show win4_2.index t (0 : Fin 2) * 2000 + 1 * (j 0).val = win4_5.index t (0 : Fin 2) * 2000 + 1 * (j 0).val; omega
    | ⟨1, _⟩ => show win4_2.index t (1 : Fin 2) * 128 + 1 * (j 1).val = win4_5.index t (1 : Fin 2) * 128 + 1 * (j 1).val; omega
  have hsn : iblk4 V c 3 t (colIdx j) = V c main_v90 (colIdxW (((cfg4.win 5).blk t).view.emb j)) := by
    show V c main_v90 (((cfg4.win 3).blk t).view.emb (colIdx j)) = _
    refine congrArg _ (funext fun a => Fin.ext ?_)
    match a with
    | ⟨0, _⟩ => show win4_3.index t (0 : Fin 2) * 2000 + 1 * (j 0).val = win4_5.index t (0 : Fin 2) * 2000 + 1 * (j 0).val; omega
    | ⟨1, _⟩ => show win4_3.index t (1 : Fin 2) * 1 + 1 * 0 = 0; omega
  have hb : iblk4 V c 4 t (rowIdx j) = V c main_v91 (rowIdxW (((cfg4.win 5).blk t).view.emb j)) := by
    show V c main_v91 (((cfg4.win 4).blk t).view.emb (rowIdx j)) = _
    refine congrArg _ (funext fun a => Fin.ext ?_)
    match a with
    | ⟨0, _⟩ => show win4_4.index t (0 : Fin 2) * 1 + 1 * 0 = 0; omega
    | ⟨1, _⟩ => show win4_4.index t (1 : Fin 2) * 128 + 1 * (j 1).val = win4_5.index t (1 : Fin 2) * 128 + 1 * (j 1).val; omega
  rw [hx, hagg, hxw, hsn, hb]

/-- An index of the output array lies in point `t`'s block iff each coordinate lies in the block's range on its axis. -/
theorem mem_block (t : Fin cfg4.N) (i : S50000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v92).slice (win4_5.rect t)).set ↔ _
  rw [View.set_slice_whole, Rect.mem_set_unit]
  exact Iff.rfl

/-- Row `r` of the output lies in the block of grid point `r / 2000`: the 25 blocks cover the array. -/
theorem covered (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : cfg4.N = 25 := N_4
  have ht : (i 0).val / 2000 < cfg4.N := by rw [hN]; omega
  refine ⟨⟨(i 0).val / 2000, ht⟩, flush4_5 _, ?_⟩
  rw [mem_block]
  obtain ⟨e00, e01, e10, e11, e20, e21, e30, e31, e40, e41, e50, e51⟩ := block_index ⟨(i 0).val / 2000, ht⟩
  have e50' : win4_5.index ⟨(i 0).val / 2000, ht⟩ (0 : Fin 2) = (i 0).val / 2000 := e50
  intro a
  match a with
  | ⟨0, _⟩ =>
    show win4_5.index ⟨(i 0).val / 2000, ht⟩ (0 : Fin 2) * 2000 ≤ (i 0).val ∧ (i 0).val < win4_5.index ⟨(i 0).val / 2000, ht⟩ (0 : Fin 2) * 2000 + 2000
    rw [e50']; omega
  | ⟨1, _⟩ =>
    show win4_5.index ⟨(i 0).val / 2000, ht⟩ (1 : Fin 2) * 128 ≤ (i 1).val ∧ (i 1).val < win4_5.index ⟨(i 0).val / 2000, ht⟩ (1 : Fin 2) * 128 + 128
    rw [e51]; omega

/-- After the launch the output array is the host's expression of the five arrays the launch found. -/
theorem array_eq (c : Dev nD) :
    (dat4 V c).arrAt 5 cfg4.N
      = Cert.Gcn.residual (V c main_v56) (V c main_v89) (V c main_v61) (V c main_v90) (V c main_v91) :=
  (dat4 V c).arrAt_eq_of_cover 5 _ (fun t _ => flushed_eq V c t) covered

end Cert.KernelIdeal.Hand.Residual4

end
-- ==== Proof.Normalize5.lean ====
/-
  The final row normalisation, as the kernel computes it on blocks of 2000 rows.  For a row `x(r, ·)` of 128 numbers let
  `μ = (∑ₖ x(r,k)) / 128` and `σ² = (∑ₖ (x(r,k) − μ)²) / 128`; entry (r, j) of the result is
  `(x(r,j) − μ) · (σ² + ε)^(−1/2) · g(0,j) + b(0,j)`.  The kernel forms the two sums by a lane reduction of the block and
  the host by a reduction of the whole array from zero; both are the same 128-term sums of the same row, every other
  operation is applied entry by entry, and a row lies inside one block.  So each block written back is a block of the
  host's expression, and the 25 blocks cover the array.
-/
import proofs.«161596_j49563922595873_1_alg».proof.Proof.Gen.KernelIdeal.Frame
import proofs.«161596_j49563922595873_1_alg».proof.Proof.Network
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand.Normalize5

open Cert.KernelIdeal Cert.KernelIdeal.Gen
open Idealize.ShloMosaic Idealize.ShloMosaic.TcCoe Idealize.SL.Sem
open Idealize.ShloMosaic.Pipeline (Dat)

/-! ## A row's statistics and one normalised entry -/

/-- The mean of 128 numbers: their sum divided by 128. -/
def meanOf (row : Fin 128 → EReal) : EReal := Ideal.div (∑ k, row k) (Ideal.ofBits .f32 0x43000000#32)

/-- Entry `xj` of a row normalised by the row's mean and variance, scaled by `g` and shifted by `b`. -/
def normEntry (row : Fin 128 → EReal) (xj g b : EReal) : EReal :=
  ((xj - meanOf row) * Ideal.rsqrt (meanOf (fun k => (row k - meanOf row) * (row k - meanOf row)) + Ideal.ofBits .f32 0x3727C5AC#32)) * g + b

/-! ## The block -/

abbrev colIdx (y : S2000x128.Idx) : S2000x1.Idx := fun a => match a with
  | ⟨0, _⟩ => ⟨(y 0).val, (y 0).isLt⟩
  | ⟨1, _⟩ => ⟨0, Nat.one_pos⟩
abbrev rowIdx (y : S2000x128.Idx) : S1x128.Idx := fun a => match a with
  | ⟨0, _⟩ => ⟨0, Nat.one_pos⟩
  | ⟨1, _⟩ => ⟨(y 1).val, (y 1).isLt⟩
abbrev rowOfCol (c : S2000x1.Idx) : S2000.Idx := fun a => match a with
  | ⟨0, _⟩ => ⟨(c 0).val, (c 0).isLt⟩
abbrev entry (r : S2000.Idx) (k : Fin 128) : S2000x128.Idx := fun a => match a with
  | ⟨0, _⟩ => ⟨(r 0).val, (r 0).isLt⟩
  | ⟨1, _⟩ => ⟨k.val, k.isLt⟩

theorem rowOfCol_entry (r : S2000.Idx) (k : Fin 128) : rowOfCol (colIdx (entry r k)) = r :=
  funext fun a => Fin.ext (by match a with | ⟨0, _⟩ => rfl)

theorem colSpread (v : Vec Ideal S2000x1 .f32) (y : S2000x128.Idx) :
    broadcastTo S2000x128 v broadcasts_S2000x1_S2000x128 y = v (colIdx y) :=
  broadcastTo_apply v broadcasts_S2000x1_S2000x128 y (colIdx y) (fun a => match a with
    | ⟨0, _⟩ => by show (y 0).val = if (2000 : Nat) = 1 then 0 else (y 0).val; rw [if_neg (by decide)]
    | ⟨1, _⟩ => by show 0 = if (1 : Nat) = 1 then 0 else (y 1).val; rw [if_pos rfl])

theorem rowSpread (b : Vec Ideal S1x128 .f32) (y : S2000x128.Idx) :
    broadcastTo S2000x128 b broadcasts_S1x128_S2000x128 y = b (rowIdx y) :=
  broadcastTo_apply b broadcasts_S1x128_S2000x128 y (rowIdx y) (fun a => match a with
    | ⟨0, _⟩ => by show 0 = if (1 : Nat) = 1 then 0 else (y 0).val; rw [if_pos rfl]
    | ⟨1, _⟩ => by show (y 1).val = if (128 : Nat) = 1 then 0 else (y 1).val; rw [if_neg (by decide)])

theorem colCast_apply (v : FVec Ideal S2000 .f32) (c : S2000x1.Idx) :
    shapeCast S2000x1 v shapeCasts_S2000_S2000x1 c = v (rowOfCol c) :=
  shapeCast_apply v shapeCasts_S2000_S2000x1 c (rowOfCol c) (by
    rw [Shape.rowMajor_val_one, Shape.rowMajor_val_two]
    have h1 : (c 1).val < 1 := (c 1).isLt
    show (c 0).val = (c 0).val * 1 + (c 1).val
    omega)

theorem rowSum (src : FVec Ideal S2000x128 .f32) (r : S2000.Idx) :
    multiReduction .add [1] S2000 src 0x00000000#32 reduces_S2000x128_S2000 (.inl rfl) rfl r = ∑ k : Fin 128, src (entry r k) := by
  refine (Ideal.multiReduction_add_single src _ reduces_S2000x128_S2000 (.inl rfl) rfl r).trans ?_
  exact Finset.sum_congr rfl fun k _ => congrArg src (funext fun a => Fin.ext (by match a with | ⟨0, _⟩ => rfl | ⟨1, _⟩ => rfl))

/-- The block's column of row means. -/
def blockMean (x : FVec Ideal S2000x128 .f32) : FVec Ideal S2000x1 .f32 :=
  divf (shapeCast S2000x1 (multiReduction .add [1] S2000 x 0x00000000#32 reduces_S2000x128_S2000 (.inl rfl) rfl) shapeCasts_S2000_S2000x1)
    (broadcast S2000x1 (Scalar.ofBits .f32 0x43000000#32))
/-- The block's deviations from its row means. -/
def blockDev (x : FVec Ideal S2000x128 .f32) : FVec Ideal S2000x128 .f32 :=
  subf x (broadcastTo S2000x128 (blockMean x) broadcasts_S2000x1_S2000x128)

theorem blockMean_apply (x : FVec Ideal S2000x128 .f32) (c : S2000x1.Idx) :
    blockMean x c = meanOf (fun k => x (entry (rowOfCol c) k)) := by
  unfold blockMean meanOf
  show Ideal.div (shapeCast S2000x1 (multiReduction .add [1] S2000 x 0x00000000#32 reduces_S2000x128_S2000 (.inl rfl) rfl) shapeCasts_S2000_S2000x1 c)
    (Ideal.ofBits .f32 0x43000000#32) = _
  rw [colCast_apply, rowSum]

theorem blockDev_apply (x : FVec Ideal S2000x128 .f32) (y : S2000x128.Idx) :
    blockDev x y = x y - meanOf (fun k => x (entry (rowOfCol (colIdx y)) k)) := by
  unfold blockDev
  show x y - broadcastTo S2000x128 (blockMean x) broadcasts_S2000x1_S2000x128 y = _
  rw [colSpread, blockMean_apply]

/-- The body is these pieces composed. -/
theorem payload_form (x : Vec Ideal S2000x128 .f32) (g b : Vec Ideal S1x128 .f32) :
    k5_pay1 x g b
      = addf (mulf (mulf (blockDev x) (broadcastTo S2000x128 (rsqrt (addf (blockMean (mulf (blockDev x) (blockDev x))) (broadcast S2000x1 (Scalar.ofBits .f32 0x3727C5AC#32)))) broadcasts_S2000x1_S2000x128))
          (broadcastTo S2000x128 g broadcasts_S1x128_S2000x128)) (broadcastTo S2000x128 b broadcasts_S1x128_S2000x128) := by
  unfold k5_pay1 blockDev blockMean
  simp only [shapeCast_self]

/-- The body's result at an entry of the block. -/
theorem payload_apply (x : Vec Ideal S2000x128 .f32) (g b : Vec Ideal S1x128 .f32) (y : S2000x128.Idx) :
    k5_pay1 x g b y = normEntry (fun k => x (entry (rowOfCol (colIdx y)) k)) (x y) (g (rowIdx y)) (b (rowIdx y)) := by
  rw [payload_form]
  show (blockDev x y * broadcastTo S2000x128 (rsqrt (addf (blockMean (mulf (blockDev x) (blockDev x))) (broadcast S2000x1 (Scalar.ofBits .f32 0x3727C5AC#32)))) broadcasts_S2000x1_S2000x128 y)
      * broadcastTo S2000x128 g broadcasts_S1x128_S2000x128 y + broadcastTo S2000x128 b broadcasts_S1x128_S2000x128 y = _
  rw [colSpread, rowSpread, rowSpread]
  show (blockDev x y * Ideal.rsqrt (blockMean (mulf (blockDev x) (blockDev x)) (colIdx y) + Ideal.ofBits .f32 0x3727C5AC#32))
      * g (rowIdx y) + b (rowIdx y) = _
  rw [blockDev_apply, blockMean_apply]
  unfold normEntry
  have hsq : (fun k => mulf (blockDev x) (blockDev x) (entry (rowOfCol (colIdx y)) k))
      = fun k => (x (entry (rowOfCol (colIdx y)) k) - meanOf (fun k' => x (entry (rowOfCol (colIdx y)) k')))
          * (x (entry (rowOfCol (colIdx y)) k) - meanOf (fun k' => x (entry (rowOfCol (colIdx y)) k'))) := by
    funext k
    show blockDev x (entry (rowOfCol (colIdx y)) k) * blockDev x (entry (rowOfCol (colIdx y)) k) = _
    rw [blockDev_apply, rowOfCol_entry]
  rw [hsq]

/-! ## The whole array -/

abbrev colIdxW (i : Cert.ReferenceIdeal.S50000x128.Idx) : Cert.ReferenceIdeal.S50000x1.Idx := fun a => match a with
  | ⟨0, _⟩ => ⟨(i 0).val, (i 0).isLt⟩
  | ⟨1, _⟩ => ⟨0, Nat.one_pos⟩
abbrev rowIdxW (i : Cert.ReferenceIdeal.S50000x128.Idx) : Cert.ReferenceIdeal.S1x128.Idx := fun a => match a with
  | ⟨0, _⟩ => ⟨0, Nat.one_pos⟩
  | ⟨1, _⟩ => ⟨(i 1).val, (i 1).isLt⟩
abbrev rowOfColW (c : Cert.ReferenceIdeal.S50000x1.Idx) : Cert.ReferenceIdeal.S50000.Idx := fun a => match a with
  | ⟨0, _⟩ => ⟨(c 0).val, (c 0).isLt⟩
abbrev entryW (r : Cert.ReferenceIdeal.S50000.Idx) (k : Fin 128) : Cert.ReferenceIdeal.S50000x128.Idx := fun a => match a with
  | ⟨0, _⟩ => ⟨(r 0).val, (r 0).isLt⟩
  | ⟨1, _⟩ => ⟨k.val, k.isLt⟩

theorem rowOfColW_entryW (r : Cert.ReferenceIdeal.S50000.Idx) (k : Fin 128) : rowOfColW (colIdxW (entryW r k)) = r :=
  funext fun a => Fin.ext (by match a with | ⟨0, _⟩ => rfl)

theorem colSpreadW (v : Cert.Gcn.FArr Cert.ReferenceIdeal.S50000x1) (i : Cert.ReferenceIdeal.S50000x128.Idx) :
    broadcastInDim Cert.ReferenceIdeal.S50000x128 ![0, 1] Cert.ReferenceIdeal.Gen.bcast_S50000x1_S50000x128_0_1 v i = v (colIdxW i) :=
  broadcastInDim_apply _ Cert.ReferenceIdeal.Gen.bcast_S50000x1_S50000x128_0_1 v i (colIdxW i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

theorem rowSpreadW (b : Cert.Gcn.FArr Cert.ReferenceIdeal.S1x128) (i : Cert.ReferenceIdeal.S50000x128.Idx) :
    broadcastInDim Cert.ReferenceIdeal.S50000x128 ![0, 1] Cert.ReferenceIdeal.Gen.bcast_S1x128_S50000x128_0_1 b i = b (rowIdxW i) :=
  broadcastInDim_apply _ Cert.ReferenceIdeal.Gen.bcast_S1x128_S50000x128_0_1 b i (rowIdxW i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

theorem colOfW (v : Cert.Gcn.FArr Cert.ReferenceIdeal.S50000) (c : Cert.ReferenceIdeal.S50000x1.Idx) :
    broadcastInDim Cert.ReferenceIdeal.S50000x1 ![0] Cert.ReferenceIdeal.Gen.bcast_S50000_S50000x1_0 v c = v (rowOfColW c) :=
  broadcastInDim_apply _ Cert.ReferenceIdeal.Gen.bcast_S50000_S50000x1_0 v c (rowOfColW c) (fun a => match a with
    | ⟨0, _⟩ => by show (c 0).val = if (50000 : Nat) = 1 then 0 else (c 0).val; rw [if_neg (by decide)])

theorem rowSumW (x : Cert.Gcn.FArr Cert.ReferenceIdeal.S50000x128) (r : Cert.ReferenceIdeal.S50000.Idx) :
    Host.reduceAdd x (constant Cert.ReferenceIdeal.S_ .f32 0x00000000#32) Cert.ReferenceIdeal.Gen.reducesTo_S50000x128_S50000_d1 Cert.ReferenceIdeal.Gen.h_S_ r
      = ∑ k : Fin 128, x (entryW r k) := by
  simp only [Host.reduceAdd, Ideal.hostReduceAdd_def]
  rw [Ideal.hostReduceAdd_single Cert.ReferenceIdeal.Gen.reducesTo_S50000x128_S50000_d1 (by decide)]
  show Ideal.ofBits .f32 0x00000000#32 + _ = _
  rw [Ideal.ofBits_zero_f32, zero_add]
  exact Finset.sum_congr rfl fun k _ => congrArg x (funext fun a => Fin.ext (by match a with | ⟨0, _⟩ => rfl | ⟨1, _⟩ => rfl))

theorem rowMean_apply (x : Cert.Gcn.FArr Cert.ReferenceIdeal.S50000x128) (c : Cert.ReferenceIdeal.S50000x1.Idx) :
    Cert.Gcn.rowMean x c = meanOf (fun k => x (entryW (rowOfColW c) k)) := by
  unfold Cert.Gcn.rowMean meanOf
  show Ideal.div (broadcastInDim Cert.ReferenceIdeal.S50000x1 ![0] Cert.ReferenceIdeal.Gen.bcast_S50000_S50000x1_0
      (Host.reduceAdd x (constant Cert.ReferenceIdeal.S_ .f32 0x00000000#32) Cert.ReferenceIdeal.Gen.reducesTo_S50000x128_S50000_d1 Cert.ReferenceIdeal.Gen.h_S_) c)
    (Ideal.ofBits .f32 0x43000000#32) = _
  rw [colOfW, rowSumW]

/-- The deviations from the row means, over the whole array. -/
def wholeDev (x : Cert.Gcn.FArr Cert.ReferenceIdeal.S50000x128) : Cert.Gcn.FArr Cert.ReferenceIdeal.S50000x128 :=
  subf x (broadcastInDim Cert.ReferenceIdeal.S50000x128 ![0, 1] Cert.ReferenceIdeal.Gen.bcast_S50000x1_S50000x128_0_1 (Cert.Gcn.rowMean x))

theorem wholeDev_apply (x : Cert.Gcn.FArr Cert.ReferenceIdeal.S50000x128) (i : Cert.ReferenceIdeal.S50000x128.Idx) :
    wholeDev x i = x i - meanOf (fun k => x (entryW (rowOfColW (colIdxW i)) k)) := by
  unfold wholeDev
  show x i - broadcastInDim Cert.ReferenceIdeal.S50000x128 ![0, 1] Cert.ReferenceIdeal.Gen.bcast_S50000x1_S50000x128_0_1 (Cert.Gcn.rowMean x) i = _
  rw [colSpreadW, rowMean_apply]

/-- The host's expression at an entry of the whole array. -/
theorem whole_apply (x : Cert.Gcn.FArr Cert.ReferenceIdeal.S50000x128) (g b : Cert.Gcn.FArr Cert.ReferenceIdeal.S1x128) (i : Cert.ReferenceIdeal.S50000x128.Idx) :
    Cert.Gcn.layerNorm x g b i
      = normEntry (fun k => x (entryW (rowOfColW (colIdxW i)) k)) (x i) (g (rowIdxW i)) (b (rowIdxW i)) := by
  unfold Cert.Gcn.layerNorm
  show (wholeDev x i * broadcastInDim Cert.ReferenceIdeal.S50000x128 ![0, 1] Cert.ReferenceIdeal.Gen.bcast_S50000x1_S50000x128_0_1
        (Host.rsqrt (addf (Cert.Gcn.rowMean (mulf (wholeDev x) (wholeDev x)))
          (broadcastInDim Cert.ReferenceIdeal.S50000x1 ![] Cert.ReferenceIdeal.Gen.bcast_S_S50000x1 (constant Cert.ReferenceIdeal.S_ .f32 0x3727C5AC#32)))) i)
      * broadcastInDim Cert.ReferenceIdeal.S50000x128 ![0, 1] Cert.ReferenceIdeal.Gen.bcast_S1x128_S50000x128_0_1 g i
      + broadcastInDim Cert.ReferenceIdeal.S50000x128 ![0, 1] Cert.ReferenceIdeal.Gen.bcast_S1x128_S50000x128_0_1 b i = _
  rw [colSpreadW, rowSpreadW, rowSpreadW]
  show (wholeDev x i * Ideal.rsqrt (Cert.Gcn.rowMean (mulf (wholeDev x) (wholeDev x)) (colIdxW i) + Ideal.ofBits .f32 0x3727C5AC#32))
      * g (rowIdxW i) + b (rowIdxW i) = _
  rw [wholeDev_apply, rowMean_apply]
  unfold normEntry
  have hsq : (fun k => mulf (wholeDev x) (wholeDev x) (entryW (rowOfColW (colIdxW i)) k))
      = fun k => (x (entryW (rowOfColW (colIdxW i)) k) - meanOf (fun k' => x (entryW (rowOfColW (colIdxW i)) k')))
          * (x (entryW (rowOfColW (colIdxW i)) k) - meanOf (fun k' => x (entryW (rowOfColW (colIdxW i)) k'))) := by
    funext k
    show wholeDev x (entryW (rowOfColW (colIdxW i)) k) * wholeDev x (entryW (rowOfColW (colIdxW i)) k) = _
    rw [wholeDev_apply, rowOfColW_entryW]
  rw [hsq]

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- Where the windows' blocks sit, decided once over the 25 grid points. -/
theorem block_index : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

set_option maxHeartbeats 1600000 in
/-- What grid point `t` writes back is block `t` of the host's expression of the arrays the launch found. -/
theorem flushed_eq (c : Dev nD) (t : Fin cfg5.N) :
    (dat5 V c).flushed 3 t = ((cfg5.win 3).blk t).view.read (Elt Ideal)
      (Cert.Gcn.layerNorm (V c main_v92) (V c main_v93) (V c main_v94)) := by
  show (cfg5.win 3).cut (grid5.coords t) ((dat5 V c).after 3 t) = _
  rw [after5_3]
  unfold out5_3
  rw [View.canon_unit_zero zero_offsets]
  simp only [View.ld_unit_zero (S := S2000x128) zero_offsets, View.ld_unit_zero (S := S1x128) zero_offsets]
  obtain ⟨e00, e01, e10, e11, e20, e21, e30, e31⟩ := block_index t
  funext j
  show k5_pay1 (iblk5 V c 0 t) (iblk5 V c 1 t) (iblk5 V c 2 t) j
    = Cert.Gcn.layerNorm (V c main_v92) (V c main_v93) (V c main_v94) (((cfg5.win 3).blk t).view.emb j)
  refine (payload_apply _ _ _ j).trans ((whole_apply _ _ _ _).trans ?_).symm
  have hrow : (fun k => V c main_v92 (entryW (rowOfColW (colIdxW (((cfg5.win 3).blk t).view.emb j))) k))
      = fun k => iblk5 V c 0 t (entry (rowOfCol (colIdx j)) k) := by
    funext k
    show _ = V c main_v92 (((cfg5.win 0).blk t).view.emb (entry (rowOfCol (colIdx j)) k))
    refine congrArg _ (funext fun a => Fin.ext ?_)
    match a with
    | ⟨0, _⟩ => show win5_3.index t (0 : Fin 2) * 2000 + 1 * (j 0).val = win5_0.index t (0 : Fin 2) * 2000 + 1 * (j 0).val; omega
    | ⟨1, _⟩ => show k.val = win5_0.index t (1 : Fin 2) * 128 + 1 * k.val; omega
  have hx : V c main_v92 (((cfg5.win 3).blk t).view.emb j) = iblk5 V c 0 t j := by
    show _ = V c main_v92 (((cfg5.win 0).blk t).view.emb j)
    refine congrArg _ (funext fun a => Fin.ext ?_)
    match a with
    | ⟨0, _⟩ => show win5_3.index t (0 : Fin 2) * 2000 + 1 * (j 0).val = win5_0.index t (0 : Fin 2) * 2000 + 1 * (j 0).val; omega
    | ⟨1, _⟩ => show win5_3.index t (1 : Fin 2) * 128 + 1 * (j 1).val = win5_0.index t (1 : Fin 2) * 128 + 1 * (j 1).val; omega
  have hg : V c main_v93 (rowIdxW (((cfg5.win 3).blk t).view.emb j)) = iblk5 V c 1 t (rowIdx j) := by
    show _ = V c main_v93 (((cfg5.win 1).blk t).view.emb (rowIdx j))
    refine congrArg _ (funext fun a => Fin.ext ?_)
    match a with
    | ⟨0, _⟩ => show 0 = win5_1.index t (0 : Fin 2) * 1 + 1 * 0; omega
    | ⟨1, _⟩ => show win5_3.index t (1 : Fin 2) * 128 + 1 * (j 1).val = win5_1.index t (1 : Fin 2) * 128 + 1 * (j 1).val; omega
  have hb : V c main_v94 (rowIdxW (((cfg5.win 3).blk t).view.emb j)) = iblk5 V c 2 t (rowIdx j) := by
    show _ = V c main_v94 (((cfg5.win 2).blk t).view.emb (rowIdx j))
    refine congrArg _ (funext fun a => Fin.ext ?_)
    match a with
    | ⟨0, _⟩ => show 0 = win5_2.index t (0 : Fin 2) * 1 + 1 * 0; omega
    | ⟨1, _⟩ => show win5_3.index t (1 : Fin 2) * 128 + 1 * (j 1).val = win5_2.index t (1 : Fin 2) * 128 + 1 * (j 1).val; omega
  rw [hrow, hx, hg, hb]

/-- An index of the output array lies in point `t`'s block iff each coordinate lies in the block's range on its axis. -/
theorem mem_block (t : Fin cfg5.N) (i : S50000x128.Idx) :
    i ∈ ((cfg5.win 3).blk t).view.set ↔ ∀ a : Fin 2, win5_3.index t a * S2000x128.size a ≤ (i a).val ∧ (i a).val < win5_3.index t a * S2000x128.size a + S2000x128.size a := by
  show i ∈ ((View.whole main_v95).slice (win5_3.rect t)).set ↔ _
  rw [View.set_slice_whole, Rect.mem_set_unit]
  exact Iff.rfl

/-- Row `r` of the output lies in the block of grid point `r / 2000`: the 25 blocks cover the array. -/
theorem covered (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 25 := N_5
  have ht : (i 0).val / 2000 < cfg5.N := by rw [hN]; omega
  refine ⟨⟨(i 0).val / 2000, ht⟩, flush5_3 _, ?_⟩
  rw [mem_block]
  obtain ⟨e00, e01, e10, e11, e20, e21, e30, e31⟩ := block_index ⟨(i 0).val / 2000, ht⟩
  have e30' : win5_3.index ⟨(i 0).val / 2000, ht⟩ (0 : Fin 2) = (i 0).val / 2000 := e30
  intro a
  match a with
  | ⟨0, _⟩ =>
    show win5_3.index ⟨(i 0).val / 2000, ht⟩ (0 : Fin 2) * 2000 ≤ (i 0).val ∧ (i 0).val < win5_3.index ⟨(i 0).val / 2000, ht⟩ (0 : Fin 2) * 2000 + 2000
    rw [e30']; omega
  | ⟨1, _⟩ =>
    show win5_3.index ⟨(i 0).val / 2000, ht⟩ (1 : Fin 2) * 128 ≤ (i 1).val ∧ (i 1).val < win5_3.index ⟨(i 0).val / 2000, ht⟩ (1 : Fin 2) * 128 + 128
    rw [e31]; omega

/-- After the launch the output array is the host's normalisation of the three arrays the launch found. -/
theorem array_eq (c : Dev nD) :
    (dat5 V c).arrAt 3 cfg5.N = Cert.Gcn.layerNorm (V c main_v92) (V c main_v93) (V c main_v94) :=
  (dat5 V c).arrAt_eq_of_cover 3 _ (fun t _ => flushed_eq V c t) covered

end Cert.KernelIdeal.Hand.Normalize5

end
-- ==== Proof.Boundaries.lean ====
/-
  The result buffer's contents at the end of @main, folded back to the launch memory.  Each launch leaves its output
  array at one whole-array function of the arrays it found (the six modules imported here) and every other buffer
  untouched; each stretch of host operations applies its operations in order.  Walking the twelve segment boundaries
  backwards from the result therefore gives one term over the argument arrays: the network, with the three re-laid
  operands.
-/
import proofs.«161596_j49563922595873_1_alg».proof.Proof.Features0
import proofs.«161596_j49563922595873_1_alg».proof.Proof.Product1
import proofs.«161596_j49563922595873_1_alg».proof.Proof.Residual2
import proofs.«161596_j49563922595873_1_alg».proof.Proof.Product3
import proofs.«161596_j49563922595873_1_alg».proof.Proof.Residual4
import proofs.«161596_j49563922595873_1_alg».proof.Proof.Normalize5
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- Launch 0 leaves its output array at its function of the arrays it found. -/
theorem W2_out (c : Dev nD) :
    W2 m ρ c (no_index (Proc.devRef .tc main_v8))
      = Cert.Gcn.projConcat (W1 m ρ c (Proc.devRef .tc main_arg0)) (W1 m ρ c (Proc.devRef .tc main_arg3)) (W1 m ρ c (Proc.devRef .tc main_v7)) (W1 m ρ c (Proc.devRef .tc main_v6)) :=
  (W2_arr m ρ c 4).trans (Features0.array_eq (V1 m ρ) c)

/-- Launch 0 leaves every other buffer as it found it: an input array is read, never written, and a buffer that is
    none of the launch's arrays is not touched. -/
theorem W2_keep (c : Dev nD) (b : Ref sig .tc) (hb : b ≠ main_v8) :
    W2 m ρ c (no_index (Proc.devRef .tc b)) = W1 m ρ c (Proc.devRef .tc b) := by
  by_cases h : ∀ w, Pipeline.arrRef spec0 w ≠ b
  · exact W2_of_ne m ρ c b h
  · push Not at h
    obtain ⟨w, rfl⟩ := h
    rw [W2_arr]
    fin_cases w
    · exact ((dat0 (V1 m ρ) c).arrAt_in 0 rfl _).trans (A_eq0 (V1 m ρ) c 0)
    · exact ((dat0 (V1 m ρ) c).arrAt_in 1 rfl _).trans (A_eq0 (V1 m ρ) c 1)
    · exact ((dat0 (V1 m ρ) c).arrAt_in 2 rfl _).trans (A_eq0 (V1 m ρ) c 2)
    · exact ((dat0 (V1 m ρ) c).arrAt_in 3 rfl _).trans (A_eq0 (V1 m ρ) c 3)
    · exact absurd rfl hb

/-- Launch 1 leaves its output array at its function of the arrays it found. -/
theorem W4_out (c : Dev nD) :
    W4 m ρ c (no_index (Proc.devRef .tc main_v25))
      = Cert.Gcn.dot128 (W3 m ρ c (Proc.devRef .tc main_v8)) (W3 m ρ c (Proc.devRef .tc main_v22)) :=
  (W4_arr m ρ c 2).trans (Product1.array_eq (V3 m ρ) c)

/-- Launch 1 leaves every other buffer as it found it: an input array is read, never written, and a buffer that is
    none of the launch's arrays is not touched. -/
theorem W4_keep (c : Dev nD) (b : Ref sig .tc) (hb : b ≠ main_v25) :
    W4 m ρ c (no_index (Proc.devRef .tc b)) = W3 m ρ c (Proc.devRef .tc b) := by
  by_cases h : ∀ w, Pipeline.arrRef spec1 w ≠ b
  · exact W4_of_ne m ρ c b h
  · push Not at h
    obtain ⟨w, rfl⟩ := h
    rw [W4_arr]
    fin_cases w
    · exact ((dat1 (V3 m ρ) c).arrAt_in 0 rfl _).trans (A_eq1 (V3 m ρ) c 0)
    · exact ((dat1 (V3 m ρ) c).arrAt_in 1 rfl _).trans (A_eq1 (V3 m ρ) c 1)
    · exact absurd rfl hb

/-- Launch 2 leaves its output array at its function of the arrays it found. -/
theorem W6_out (c : Dev nD) :
    W6 m ρ c (no_index (Proc.devRef .tc main_v56))
      = Cert.Gcn.residual (W5 m ρ c (Proc.devRef .tc main_v8)) (W5 m ρ c (Proc.devRef .tc main_v53)) (W5 m ρ c (Proc.devRef .tc main_v25)) (W5 m ρ c (Proc.devRef .tc main_v54)) (W5 m ρ c (Proc.devRef .tc main_v55)) :=
  (W6_arr m ρ c 5).trans (Residual2.array_eq (V5 m ρ) c)

/-- Launch 2 leaves every other buffer as it found it: an input array is read, never written, and a buffer that is
    none of the launch's arrays is not touched. -/
theorem W6_keep (c : Dev nD) (b : Ref sig .tc) (hb : b ≠ main_v56) :
    W6 m ρ c (no_index (Proc.devRef .tc b)) = W5 m ρ c (Proc.devRef .tc b) := by
  by_cases h : ∀ w, Pipeline.arrRef spec2 w ≠ b
  · exact W6_of_ne m ρ c b h
  · push Not at h
    obtain ⟨w, rfl⟩ := h
    rw [W6_arr]
    fin_cases w
    · exact ((dat2 (V5 m ρ) c).arrAt_in 0 rfl _).trans (A_eq2 (V5 m ρ) c 0)
    · exact ((dat2 (V5 m ρ) c).arrAt_in 1 rfl _).trans (A_eq2 (V5 m ρ) c 1)
    · exact ((dat2 (V5 m ρ) c).arrAt_in 2 rfl _).trans (A_eq2 (V5 m ρ) c 2)
    · exact ((dat2 (V5 m ρ) c).arrAt_in 3 rfl _).trans (A_eq2 (V5 m ρ) c 3)
    · exact ((dat2 (V5 m ρ) c).arrAt_in 4 rfl _).trans (A_eq2 (V5 m ρ) c 4)
    · exact absurd rfl hb

/-- Launch 3 leaves its output array at its function of the arrays it found. -/
theorem W8_out (c : Dev nD) :
    W8 m ρ c (no_index (Proc.devRef .tc main_v61))
      = Cert.Gcn.dot128 (W7 m ρ c (Proc.devRef .tc main_v56)) (W7 m ρ c (Proc.devRef .tc main_v58)) :=
  (W8_arr m ρ c 2).trans (Product3.array_eq (V7 m ρ) c)

/-- Launch 3 leaves every other buffer as it found it: an input array is read, never written, and a buffer that is
    none of the launch's arrays is not touched. -/
theorem W8_keep (c : Dev nD) (b : Ref sig .tc) (hb : b ≠ main_v61) :
    W8 m ρ c (no_index (Proc.devRef .tc b)) = W7 m ρ c (Proc.devRef .tc b) := by
  by_cases h : ∀ w, Pipeline.arrRef spec3 w ≠ b
  · exact W8_of_ne m ρ c b h
  · push Not at h
    obtain ⟨w, rfl⟩ := h
    rw [W8_arr]
    fin_cases w
    · exact ((dat3 (V7 m ρ) c).arrAt_in 0 rfl _).trans (A_eq3 (V7 m ρ) c 0)
    · exact ((dat3 (V7 m ρ) c).arrAt_in 1 rfl _).trans (A_eq3 (V7 m ρ) c 1)
    · exact absurd rfl hb

/-- Launch 4 leaves its output array at its function of the arrays it found. -/
theorem W10_out (c : Dev nD) :
    W10 m ρ c (no_index (Proc.devRef .tc main_v92))
      = Cert.Gcn.residual (W9 m ρ c (Proc.devRef .tc main_v56)) (W9 m ρ c (Proc.devRef .tc main_v89)) (W9 m ρ c (Proc.devRef .tc main_v61)) (W9 m ρ c (Proc.devRef .tc main_v90)) (W9 m ρ c (Proc.devRef .tc main_v91)) :=
  (W10_arr m ρ c 5).trans (Residual4.array_eq (V9 m ρ) c)

/-- Launch 4 leaves every other buffer as it found it: an input array is read, never written, and a buffer that is
    none of the launch's arrays is not touched. -/
theorem W10_keep (c : Dev nD) (b : Ref sig .tc) (hb : b ≠ main_v92) :
    W10 m ρ c (no_index (Proc.devRef .tc b)) = W9 m ρ c (Proc.devRef .tc b) := by
  by_cases h : ∀ w, Pipeline.arrRef spec4 w ≠ b
  · exact W10_of_ne m ρ c b h
  · push Not at h
    obtain ⟨w, rfl⟩ := h
    rw [W10_arr]
    fin_cases w
    · exact ((dat4 (V9 m ρ) c).arrAt_in 0 rfl _).trans (A_eq4 (V9 m ρ) c 0)
    · exact ((dat4 (V9 m ρ) c).arrAt_in 1 rfl _).trans (A_eq4 (V9 m ρ) c 1)
    · exact ((dat4 (V9 m ρ) c).arrAt_in 2 rfl _).trans (A_eq4 (V9 m ρ) c 2)
    · exact ((dat4 (V9 m ρ) c).arrAt_in 3 rfl _).trans (A_eq4 (V9 m ρ) c 3)
    · exact ((dat4 (V9 m ρ) c).arrAt_in 4 rfl _).trans (A_eq4 (V9 m ρ) c 4)
    · exact absurd rfl hb

/-- Launch 5 leaves its output array at its function of the arrays it found. -/
theorem W12_out (c : Dev nD) :
    W12 m ρ c (no_index (Proc.devRef .tc main_v95))
      = Cert.Gcn.layerNorm (W11 m ρ c (Proc.devRef .tc main_v92)) (W11 m ρ c (Proc.devRef .tc main_v93)) (W11 m ρ c (Proc.devRef .tc main_v94)) :=
  (W12_arr m ρ c 3).trans (Normalize5.array_eq (V11 m ρ) c)

/-- Launch 5 leaves every other buffer as it found it: an input array is read, never written, and a buffer that is
    none of the launch's arrays is not touched. -/
theorem W12_keep (c : Dev nD) (b : Ref sig .tc) (hb : b ≠ main_v95) :
    W12 m ρ c (no_index (Proc.devRef .tc b)) = W11 m ρ c (Proc.devRef .tc b) := by
  by_cases h : ∀ w, Pipeline.arrRef spec5 w ≠ b
  · exact W12_of_ne m ρ c b h
  · push Not at h
    obtain ⟨w, rfl⟩ := h
    rw [W12_arr]
    fin_cases w
    · exact ((dat5 (V11 m ρ) c).arrAt_in 0 rfl _).trans (A_eq5 (V11 m ρ) c 0)
    · exact ((dat5 (V11 m ρ) c).arrAt_in 1 rfl _).trans (A_eq5 (V11 m ρ) c 1)
    · exact ((dat5 (V11 m ρ) c).arrAt_in 2 rfl _).trans (A_eq5 (V11 m ρ) c 2)
    · exact absurd rfl hb

set_option maxHeartbeats 8000000 in
/-- The result buffer after the last launch, as the network of the launch memory's argument arrays. -/
theorem result_eq (c : Dev nD) :
    W12 m ρ c (Proc.devRef .tc main_v95) = Cert.Gcn.networkCast (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  simp (disch := decide) only [W12_out, W12_keep, W11, W10_out, W10_keep, W9, W8_out, W8_keep, W7, W6_out, W6_keep, W5,
    W4_out, W4_keep, W3, W2_out, W2_keep, W1,
    hostOps0, hostOps1, hostOps2, hostOps3, hostOps4, hostOps5,
    after_cons, after_nil,
    nullary_result', unary_result', binary_result', ternary_result', quaternary_result', reshape_result',
    nullary_result_ne', unary_result_ne', binary_result_ne', ternary_result_ne', quaternary_result_ne', reshape_result_ne']
  rfl

end Cert.KernelIdeal.Hand

end
-- ==== Proof.Reference.lean ====
/-
  The reference's result, read as the network.  The host program is straight-line: its generated run ends with the
  result buffer at the operations' composed term of the argument arrays.  That term is the network's text with every
  definition unfolded: the same operations on the same operands, in the same order.
-/
import proofs.«161596_j49563922595873_1_alg».proof.Proof.Gen.ReferenceIdeal.Run
import proofs.«161596_j49563922595873_1_alg».proof.Proof.Network

set_option maxRecDepth 16384

noncomputable section

namespace Cert.ReferenceIdeal.Hand

open Cert.ReferenceIdeal Cert.ReferenceIdeal.Gen Idealize.ShloMosaic Idealize.ShloMosaic.TcCoe Idealize.SL.Sem

set_option maxHeartbeats 8000000 in
/-- The reference's result term is the network of the argument arrays. -/
theorem result_eq (m : (ℓ : Loc nD τ sig) → Buf (Elt Ideal) ℓ) (c : Dev nD) :
    Cert.ReferenceIdeal.Value.res_main_v132 m c = Cert.Gcn.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.Value.res_main_v132
  rfl

end Cert.ReferenceIdeal.Hand

end
-- ==== Proof.Claims.lean ====
/-
  The five claims.  The three frames are the generated ones (the reference's is its generated run with the result
  dropped); the idealization rewrote nothing, so there is nothing to preserve; and the two idealized programs end with
  equal results because each ends at the network of its argument arrays: the kernel by folding its twelve segment
  boundaries back to the launch memory (each launch's output array a whole-array function of what it found), the
  reference because its composed term is the network's text, and the two arrangements of the three re-laid operands are
  one function.  No entry of any argument needs to be finite for this: the two sides apply the same operations to the
  same numbers, sums of the same terms, on the extended reals.
-/
import proofs.«161596_j49563922595873_1_alg».proof.Defs
import proofs.«161596_j49563922595873_1_alg».proof.Proof.Gen.Kernel.Frame
import proofs.«161596_j49563922595873_1_alg».proof.Proof.Gen.KernelIdeal.Frame
import proofs.«161596_j49563922595873_1_alg».proof.Proof.Gen.ReferenceIdeal.Run
import proofs.«161596_j49563922595873_1_alg».proof.Proof.Gen.Pre_finite_inputs
import proofs.«161596_j49563922595873_1_alg».proof.Proof.KernelRun
import proofs.«161596_j49563922595873_1_alg».proof.Proof.Boundaries
import proofs.«161596_j49563922595873_1_alg».proof.Proof.Reference

set_option maxRecDepth 16384

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

set_option maxHeartbeats 4000000 in
/-- Both idealized programs end with the result array at the network of the (agreeing) argument arrays. -/
theorem algebraic : Cert.algebraic_KernelIdeal_ReferenceIdeal := by
  intro m ρ m' ρ' _ hagree
  refine ⟨fun c => Cert.Gcn.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans ((Cert.KernelIdeal.Hand.result_eq m ρ c).trans (Cert.Gcn.networkCast_eq _ _ _ _ _ _ _ _ _ _)), (h c).2⟩)
      (Cert.KernelIdeal.Hand.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Hand.result_eq, h0, h1, h2, h3, h4, h5, h6, h7, h8, h9]

end Cert.Proof.Claims

end
-- ==== Proof.lean ====
/-
  `Cert.Claim` for the graph network: a projection laid beside gathered embedding rows, the inverse square roots of the
  node degrees, two graph-convolution layers with residual connections, and a final row normalisation.  The kernel runs the
  dense stages as six launches over 25 blocks of 2000 rows, among the same host gathers and scatter-additions as the
  reference; read on the extended reals, each launch's output array is the host's expression of the arrays it found, so
  both programs end at one function of the ten arguments (Proof/Network.lean).  The claims are proved in Proof/Claims.lean.
-/
import proofs.«161596_j49563922595873_1_alg».proof.Defs
import proofs.«161596_j49563922595873_1_alg».proof.Proof.Gen.Kernel
import proofs.«161596_j49563922595873_1_alg».proof.Proof.Gen.Kernel.Skeleton
import proofs.«161596_j49563922595873_1_alg».proof.Proof.Gen.Kernel.Launch
import proofs.«161596_j49563922595873_1_alg».proof.Proof.Gen.Kernel.Points
import proofs.«161596_j49563922595873_1_alg».proof.Proof.Gen.Kernel.Frame
import proofs.«161596_j49563922595873_1_alg».proof.Proof.Gen.KernelIdeal
import proofs.«161596_j49563922595873_1_alg».proof.Proof.Gen.KernelIdeal.Skeleton
import proofs.«161596_j49563922595873_1_alg».proof.Proof.Gen.KernelIdeal.Launch
import proofs.«161596_j49563922595873_1_alg».proof.Proof.Gen.KernelIdeal.Points
import proofs.«161596_j49563922595873_1_alg».proof.Proof.Gen.KernelIdeal.Frame
import proofs.«161596_j49563922595873_1_alg».proof.Proof.Gen.ReferenceIdeal
import proofs.«161596_j49563922595873_1_alg».proof.Proof.Gen.Pre_finite_inputs
import proofs.«161596_j49563922595873_1_alg».proof.Proof.Gen.ReferenceIdeal.Run
import proofs.«161596_j49563922595873_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_kernel, Cert.Proof.Claims.frame_kernelIdeal, Cert.Proof.Claims.frame_referenceIdeal,
  Cert.Proof.Claims.preserves, Cert.Proof.Claims.algebraic⟩

end Cert.Proof

end
